-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temp" .f32 0x3DB504F3#32 ((1048576 / 11863283 : ℝ) : EReal)
  ∧ IdealRules.named_const.Statement Cert.KernelIdeal.κ "inv_temp" .f32 0x3DB504F3#32 ((1048576 / 11863283 : ℝ) : EReal)
  ∧ IdealRules.named_const.Statement Cert.KernelIdeal.κ "inv_temp" .f32 0x3DB504F3#32 ((1048576 / 11863283 : ℝ) : EReal)
  ∧ IdealRules.named_const.Statement Cert.KernelIdeal.κ "inv_temp" .f32 0x3DB504F3#32 ((1048576 / 11863283 : ℝ) : EReal)
  ∧ IdealRules.named_const.Statement Cert.KernelIdeal.κ "inv_temp" .f32 0x3DB504F3#32 ((1048576 / 11863283 : ℝ) : EReal)
  ∧ IdealRules.named_const.Statement Cert.KernelIdeal.κ "inv_temp" .f32 0x3DB504F3#32 ((1048576 / 11863283 : ℝ) : EReal)
  ∧ IdealRules.named_const.Statement Cert.KernelIdeal.κ "inv_temp" .f32 0x3DB504F3#32 ((1048576 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x128x784 : Shape := ⟨3, ![2, 128, 784]⟩
abbrev S_ : Shape := ⟨0, ![]⟩

class Facts : Prop where
  bcast_S_S2x128x784 : S_.BroadcastsInDim S2x128x784 (![] : Fin 0 → Fin S2x128x784.rank)
  reducesTo_S2x128x784_S_d0_1_2 : S2x128x784.ReducesTo [0, 1, 2] S_
  h_S_ : 0 < S_.numel

variable [Facts]

def fn {F : FTy → Type} [FloatOps F] (main_arg0 : FVec F S2x128x784 .f32) (main_arg1 : FVec F S2x128x784 .f32) (main_arg2 : FVec F S2x128x784 .f32) : IVec S_ 1 :=
  let main_v0 : FVec F S2x128x784 .f32 := Host.absf main_arg0
  let main_cst : FVec F S_ .f32 := constant S_ .f32 0x7F800000#32
  let main_v1 : FVec F S2x128x784 .f32 := broadcastInDim S2x128x784 ![] bcast_S_S2x128x784 main_cst
  let main_v2 : IVec S2x128x784 1 := cmpf .olt main_v0 main_v1
  let main_c : IVec S_ 1 := constantI S_ 1 1#1
  let main_v3 : IVec S_ 1 := (fun x v => Host.reduce IntOp.andi x v reducesTo_S2x128x784_S_d0_1_2 h_S_) main_v2 main_c
  let main_v4 : FVec F S2x128x784 .f32 := Host.absf main_arg1
  let main_cst_0 : FVec F S_ .f32 := constant S_ .f32 0x7F800000#32
  let main_v5 : FVec F S2x128x784 .f32 := broadcastInDim S2x128x784 ![] bcast_S_S2x128x784 main_cst_0
  let main_v6 : IVec S2x128x784 1 := cmpf .olt main_v4 main_v5
  let main_c_1 : IVec S_ 1 := constantI S_ 1 1#1
  let main_v7 : IVec S_ 1 := (fun x v => Host.reduce IntOp.andi x v reducesTo_S2x128x784_S_d0_1_2 h_S_) main_v6 main_c_1
  let main_v8 : IVec S_ 1 := andi main_v3 main_v7
  let main_v9 : FVec F S2x128x784 .f32 := Host.absf main_arg2
  let main_cst_2 : FVec F S_ .f32 := constant S_ .f32 0x7F800000#32
  let main_v10 : FVec F S2x128x784 .f32 := broadcastInDim S2x128x784 ![] bcast_S_S2x128x784 main_cst_2
  let main_v11 : IVec S2x128x784 1 := cmpf .olt main_v9 main_v10
  let main_c_3 : IVec S_ 1 := constantI S_ 1 1#1
  let main_v12 : IVec S_ 1 := (fun x v => Host.reduce IntOp.andi x v reducesTo_S2x128x784_S_d0_1_2 h_S_) main_v11 main_c_3
  let main_v13 : IVec S_ 1 := andi main_v8 main_v12
  main_v13
-- ==== Kernel.lean ====
abbrev S2x128x784 : Shape := ⟨3, ![2, 128, 784]⟩
abbrev S2x784x784 : Shape := ⟨3, ![2, 784, 784]⟩
abbrev S1x128x784 : Shape := ⟨3, ![1, 128, 784]⟩
abbrev S1x784x784 : Shape := ⟨3, ![1, 784, 784]⟩
abbrev S128x784 : Shape := ⟨2, ![128, 784]⟩
abbrev S112x784 : Shape := ⟨2, ![112, 784]⟩
abbrev S1x8x784 : Shape := ⟨3, ![1, 8, 784]⟩
abbrev S8x784 : Shape := ⟨2, ![8, 784]⟩
abbrev S8x112 : Shape := ⟨2, ![8, 112]⟩
abbrev S8x1x784 : Shape := ⟨3, ![8, 1, 784]⟩
abbrev S8x112x1 : Shape := ⟨3, ![8, 112, 1]⟩
abbrev S8x112x784 : Shape := ⟨3, ![8, 112, 784]⟩
abbrev S112 : Shape := ⟨1, ![112]⟩
abbrev S112x1 : Shape := ⟨2, ![112, 1]⟩
abbrev S1x112x784 : Shape := ⟨3, ![1, 112, 784]⟩
abbrev S128x112 : Shape := ⟨2, ![128, 112]⟩
abbrev S1x128x112 : Shape := ⟨3, ![1, 128, 112]⟩

abbrev nBuf : Space → Nat
  | .hbm => 5
  | .vmem => 10
  | .smem => 0
  | _ => 0

abbrev bufTy : (tb : Table) → Fin (tcTables nBuf tb) → BufTy
  | .hbm, ⟨0, _⟩ => ⟨S2x128x784, .f32⟩
  | .hbm, ⟨1, _⟩ => ⟨S2x128x784, .f32⟩
  | .hbm, ⟨2, _⟩ => ⟨S2x128x784, .f32⟩
  | .hbm, ⟨3, _⟩ => ⟨S2x128x784, .f32⟩
  | .hbm, ⟨4, _⟩ => ⟨S2x784x784, .f32⟩
  | .local _ .vmem, ⟨0, _⟩ => ⟨S1x128x784, .f32⟩
  | .local _ .vmem, ⟨1, _⟩ => ⟨S1x128x784, .f32⟩
  | .local _ .vmem, ⟨2, _⟩ => ⟨S1x128x784, .f32⟩
  | .local _ .vmem, ⟨3, _⟩ => ⟨S1x128x784, .f32⟩
  | .local _ .vmem, ⟨4, _⟩ => ⟨S1x128x784, .f32⟩
  | .local _ .vmem, ⟨5, _⟩ => ⟨S1x128x784, .f32⟩
  | .local _ .vmem, ⟨6, _⟩ => ⟨S1x128x784, .f32⟩
  | .local _ .vmem, ⟨7, _⟩ => ⟨S1x128x784, .f32⟩
  | .local _ .vmem, ⟨8, _⟩ => ⟨S1x784x784, .f32⟩
  | .local _ .vmem, ⟨9, _⟩ => ⟨S1x784x784, .f32⟩
  | _, _ => ⟨S2x128x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c16_i32 : BitVec 32 := 16#32
  let v4 : BitVec 32 := Scalar.addi c0_i32 c16_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32 : BitVec 32 := 8#32
  let v157 : BitVec 32 := Scalar.muli arg6 c8_i32
  v157
def k0_off1 (k0_t1 : Fin k0_t1_loop.trips) : Fin 3 → Nat :=
  let c0_97 : Index := 0#32
  let c0_i32 : BitVec 32 := 0#32
  let c1_i32 : BitVec 32 := 1#32
  let arg6 : BitVec 32 := Scf.iv c0_i32 c1_i32 k0_t1
  let c8_i32 : BitVec 32 := 8#32
  let v157 : BitVec 32 := Scalar.muli arg6 c8_i32
  let v158 : BitVec 32 := v157
  let v159 : Index := Scalar.indexCast v158
  let c0_98 : Index := 0#32
  ![0, v159.toNat, 0]
@[reducible] def k0_t2_loop : Scf.Loop 32 :=
  let c0_i32_14 : BitVec 32 := 0#32
  let c16_i32_15 : BitVec 32 := 16#32
  let v26 : BitVec 32 := Scalar.addi c0_i32_14 c16_i32_15
  let c1_i32_16 : BitVec 32 := 1#32
  ⟨c0_i32_14, v26, c1_i32_16⟩
def k0_mult2 (k0_t2 : Fin k0_t2_loop.trips) : BitVec 32 :=
  let c0_i32_14 : BitVec 32 := 0#32
  let c1_i32_16 : BitVec 32 := 1#32
  let arg6 : BitVec 32 := Scf.iv c0_i32_14 c1_i32_16 k0_t2
  let c8_i32 : BitVec 32 := 8#32
  let v157 : BitVec 32 := Scalar.muli arg6 c8_i32
  v157
def k0_off2 (k0_t2 : Fin k0_t2_loop.trips) : Fin 3 → Nat :=
  let c0_97 : Index := 0#32
  let c0_i32_14 : BitVec 32 := 0#32
  let c1_i32_16 : BitVec 32 := 1#32
  let arg6 : BitVec 32 := Scf.iv c0_i32_14 c1_i32_16 k0_t2
  let c8_i32 : BitVec 32 := 8#32
  let v157 : BitVec 32 := Scalar.muli arg6 c8_i32
  let v158 : BitVec 32 := v157
  let v159 : Index := Scalar.indexCast v158
  let c0_98 : Index := 0#32
  ![0, v159.toNat, 0]
@[reducible] def k0_t3_loop : Scf.Loop 32 :=
  let c0_i32_28 : BitVec 32 := 0#32
  let c16_i32_29 : BitVec 32 := 16#32
  let v48 : BitVec 32 := Scalar.addi c0_i32_28 c16_i32_29
  let c1_i32_30 : BitVec 32 := 1#32
  ⟨c0_i32_28, v48, c1_i32_30⟩
def k0_mult3 (k0_t3 : Fin k0_t3_loop.trips) : BitVec 32 :=
  let c0_i32_28 : BitVec 32 := 0#32
  let c1_i32_30 : BitVec 32 := 1#32
  let arg6 : BitVec 32 := Scf.iv c0_i32_28 c1_i32_30 k0_t3
  let c8_i32 : BitVec 32 := 8#32
  let v157 : BitVec 32 := Scalar.muli arg6 c8_i32
  v157
def k0_off3 (k0_t3 : Fin k0_t3_loop.trips) : Fin 3 → Nat :=
  let c0_97 : Index := 0#32
  let c0_i32_28 : BitVec 32 := 0#32
  let c1_i32_30 : BitVec 32 := 1#32
  let arg6 : BitVec 32 := Scf.iv c0_i32_28 c1_i32_30 k0_t3
  let c8_i32 : BitVec 32 := 8#32
  let v157 : BitVec 32 := Scalar.muli arg6 c8_i32
  let v158 : BitVec 32 := v157
  let v159 : Index := Scalar.indexCast v158
  let c0_98 : Index := 0#32
  ![0, v159.toNat, 0]
@[reducible] def k0_t4_loop : Scf.Loop 32 :=
  let c0_i32_42 : BitVec 32 := 0#32
  let c16_i32_43 : BitVec 32 := 16#32
  let v70 : BitVec 32 := Scalar.addi c0_i32_42 c16_i32_43
  let c1_i32_44 : BitVec 32 := 1#32
  ⟨c0_i32_42, v70, c1_i32_44⟩
def k0_mult4 (k0_t4 : Fin k0_t4_loop.trips) : BitVec 32 :=
  let c0_i32_42 : BitVec 32 := 0#32
  let c1_i32_44 : BitVec 32 := 1#32
  let arg6 : BitVec 32 := Scf.iv c0_i32_42 c1_i32_44 k0_t4
  let c8_i32 : BitVec 32 := 8#32
  let v157 : BitVec 32 := Scalar.muli arg6 c8_i32
  v157
def k0_off4 (k0_t4 : Fin k0_t4_loop.trips) : Fin 3 → Nat :=
  let c0_97 : Index := 0#32
  let c0_i32_42 : BitVec 32 := 0#32
  let c1_i32_44 : BitVec 32 := 1#32
  let arg6 : BitVec 32 := Scf.iv c0_i32_42 c1_i32_44 k0_t4
  let c8_i32 : BitVec 32 := 8#32
  let v157 : BitVec 32 := Scalar.muli arg6 c8_i32
  let v158 : BitVec 32 := v157
  let v159 : Index := Scalar.indexCast v158
  let c0_98 : Index := 0#32
  ![0, v159.toNat, 0]
@[reducible] def k0_t5_loop : Scf.Loop 32 :=
  let c0_i32_56 : BitVec 32 := 0#32
  let c16_i32_57 : BitVec 32 := 16#32
  let v92 : BitVec 32 := Scalar.addi c0_i32_56 c16_i32_57
  let c1_i32_58 : BitVec 32 := 1#32
  ⟨c0_i32_56, v92, c1_i32_58⟩
def k0_mult5 (k0_t5 : Fin k0_t5_loop.trips) : BitVec 32 :=
  let c0_i32_56 : BitVec 32 := 0#32
  let c1_i32_58 : BitVec 32 := 1#32
  let arg6 : BitVec 32 := Scf.iv c0_i32_56 c1_i32_58 k0_t5
  let c8_i32 : BitVec 32 := 8#32
  let v157 : BitVec 32 := Scalar.muli arg6 c8_i32
  v157
def k0_off5 (k0_t5 : Fin k0_t5_loop.trips) : Fin 3 → Nat :=
  let c0_97 : Index := 0#32
  let c0_i32_56 : BitVec 32 := 0#32
  let c1_i32_58 : BitVec 32 := 1#32
  let arg6 : BitVec 32 := Scf.iv c0_i32_56 c1_i32_58 k0_t5
  let c8_i32 : BitVec 32 := 8#32
  let v157 : BitVec 32 := Scalar.muli arg6 c8_i32
  let v158 : BitVec 32 := v157
  let v159 : Index := Scalar.indexCast v158
  let c0_98 : Index := 0#32
  ![0, v159.toNat, 0]
@[reducible] def k0_t6_loop : Scf.Loop 32 :=
  let c0_i32_70 : BitVec 32 := 0#32
  let c16_i32_71 : BitVec 32 := 16#32
  let v114 : BitVec 32 := Scalar.addi c0_i32_70 c16_i32_71
  let c1_i32_72 : BitVec 32 := 1#32
  ⟨c0_i32_70, v114, c1_i32_72⟩
def k0_mult6 (k0_t6 : Fin k0_t6_loop.trips) : BitVec 32 :=
  let c0_i32_70 : BitVec 32 := 0#32
  let c1_i32_72 : BitVec 32 := 1#32
  let arg6 : BitVec 32 := Scf.iv c0_i32_70 c1_i32_72 k0_t6
  let c8_i32 : BitVec 32 := 8#32
  let v157 : BitVec 32 := Scalar.muli arg6 c8_i32
  v157
def k0_off6 (k0_t6 : Fin k0_t6_loop.trips) : Fin 3 → Nat :=
  let c0_97 : Index := 0#32
  let c0_i32_70 : BitVec 32 := 0#32
  let c1_i32_72 : BitVec 32 := 1#32
  let arg6 : BitVec 32 := Scf.iv c0_i32_70 c1_i32_72 k0_t6
  let c8_i32 : BitVec 32 := 8#32
  let v157 : BitVec 32 := Scalar.muli arg6 c8_i32
  let v158 : BitVec 32 := v157
  let v159 : Index := Scalar.indexCast v158
  let c0_98 : Index := 0#32
  ![0, v159.toNat, 0]
@[reducible] def k0_t7_loop : Scf.Loop 32 :=
  let c0_i32_84 : BitVec 32 := 0#32
  let c16_i32_85 : BitVec 32 := 16#32
  let v136 : BitVec 32 := Scalar.addi c0_i32_84 c16_i32_85
  let c1_i32_86 : BitVec 32 := 1#32
  ⟨c0_i32_84, v136, c1_i32_86⟩
def k0_mult7 (k0_t7 : Fin k0_t7_loop.trips) : BitVec 32 :=
  let c0_i32_84 : BitVec 32 := 0#32
  let c1_i32_86 : BitVec 32 := 1#32
  let arg6 : BitVec 32 := Scf.iv c0_i32_84 c1_i32_86 k0_t7
  let c8_i32 : BitVec 32 := 8#32
  let v157 : BitVec 32 := Scalar.muli arg6 c8_i32
  v157
def k0_off7 (k0_t7 : Fin k0_t7_loop.trips) : Fin 3 → Nat :=
  let c0_97 : Index := 0#32
  let c0_i32_84 : BitVec 32 := 0#32
  let c1_i32_86 : BitVec 32 := 1#32
  let arg6 : BitVec 32 := Scf.iv c0_i32_84 c1_i32_86 k0_t7
  let c8_i32 : BitVec 32 := 8#32
  let v157 : BitVec 32 := Scalar.muli arg6 c8_i32
  let v158 : BitVec 32 := v157
  let v159 : Index := Scalar.indexCast v158
  let c0_98 : Index := 0#32
  ![0, v159.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x784 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x784 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x784 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x784x784 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x128x784_S1x128x784_0_0_0 : ∀ a, (![0, 0, 0] : Fin 3 → Nat) a + S1x128x784.size a ≤ S1x128x784.size a
  h_S1x128x784 : 0 < S1x128x784.numel
  shapeCasts_S1x128x784_S128x784 : S1x128x784.ShapeCasts S128x784
  bitsLt_bf16_f32 : FTy.bits .bf16 < FTy.bits .f32
  h_S1x8x784 : 0 < S1x8x784.numel
  shapeCasts_S1x8x784_S8x784 : S1x8x784.ShapeCasts S8x784
  slices_S8x784_o0_0_S8x112 : S8x784.Slices ![0, 0] S8x112
  shapeCasts_S8x784_S8x1x784 : S8x784.ShapeCasts S8x1x784
  shapeCasts_S8x112_S8x112x1 : S8x112.ShapeCasts S8x112x1
  broadcasts_S8x1x784_S8x112x784 : S8x1x784.Broadcasts S8x112x784
  broadcasts_S8x112x1_S8x112x784 : S8x112x1.Broadcasts S8x112x784
  reduces_S8x112x784_S112x784 : S8x112x784.Reduces [0] S112x784
  reduces_S112x784_S112 : S112x784.Reduces [1] S112
  shapeCasts_S112_S112x1 : S112.ShapeCasts S112x1
  broadcasts_S112x1_S112x784 : S112x1.Broadcasts S112x784
  inb_S1x784x784_S1x112x784_0_0_0 : ∀ a, (![0, 0, 0] : Fin 3 → Nat) a + S1x112x784.size a ≤ S1x784x784.size a
  h_S1x112x784 : 0 < S1x112x784.numel
  shapeCasts_S1x112x784_S112x784 : S1x112x784.ShapeCasts S112x784
  shapeCasts_S112x784_S1x112x784 : S112x784.ShapeCasts S1x112x784
  inb_S1x128x784_S1x128x112_0_0_0 : ∀ a, (![0, 0, 0] : Fin 3 → Nat) a + S1x128x112.size a ≤ S1x128x784.size a
  h_S1x128x112 : 0 < S1x128x112.numel
  shapeCasts_S1x128x112_S128x112 : S1x128x112.ShapeCasts S128x112
  shapeCasts_S128x112_S1x128x112 : S128x112.ShapeCasts S1x128x112
  slices_S8x784_o0_112_S8x112 : S8x784.Slices ![0, 112] S8x112
  inb_S1x784x784_S1x112x784_0_112_0 : ∀ a, (![0, 112, 0] : Fin 3 → Nat) a + S1x112x784.size a ≤ S1x784x784.size a
  inb_S1x128x784_S1x128x112_0_0_112 : ∀ a, (![0, 0, 112] : Fin 3 → Nat) a + S1x128x112.size a ≤ S1x128x784.size a
  slices_S8x784_o0_224_S8x112 : S8x784.Slices ![0, 224] S8x112
  inb_S1x784x784_S1x112x784_0_224_0 : ∀ a, (![0, 224, 0] : Fin 3 → Nat) a + S1x112x784.size a ≤ S1x784x784.size a
  inb_S1x128x784_S1x128x112_0_0_224 : ∀ a, (![0, 0, 224] : Fin 3 → Nat) a + S1x128x112.size a ≤ S1x128x784.size a
  slices_S8x784_o0_336_S8x112 : S8x784.Slices ![0, 336] S8x112
  inb_S1x784x784_S1x112x784_0_336_0 : ∀ a, (![0, 336, 0] : Fin 3 → Nat) a + S1x112x784.size a ≤ S1x784x784.size a
  inb_S1x128x784_S1x128x112_0_0_336 : ∀ a, (![0, 0, 336] : Fin 3 → Nat) a + S1x128x112.size a ≤ S1x128x784.size a
  slices_S8x784_o0_448_S8x112 : S8x784.Slices ![0, 448] S8x112
  inb_S1x784x784_S1x112x784_0_448_0 : ∀ a, (![0, 448, 0] : Fin 3 → Nat) a + S1x112x784.size a ≤ S1x784x784.size a
  inb_S1x128x784_S1x128x112_0_0_448 : ∀ a, (![0, 0, 448] : Fin 3 → Nat) a + S1x128x112.size a ≤ S1x128x784.size a
  slices_S8x784_o0_560_S8x112 : S8x784.Slices ![0, 560] S8x112
  inb_S1x784x784_S1x112x784_0_560_0 : ∀ a, (![0, 560, 0] : Fin 3 → Nat) a + S1x112x784.size a ≤ S1x784x784.size a
  inb_S1x128x784_S1x128x112_0_0_560 : ∀ a, (![0, 0, 560] : Fin 3 → Nat) a + S1x128x112.size a ≤ S1x128x784.size a
  slices_S8x784_o0_672_S8x112 : S8x784.Slices ![0, 672] S8x112
  inb_S1x784x784_S1x112x784_0_672_0 : ∀ a, (![0, 672, 0] : Fin 3 → Nat) a + S1x112x784.size a ≤ S1x784x784.size a
  inb_S1x128x784_S1x128x112_0_0_672 : ∀ a, (![0, 0, 672] : Fin 3 → Nat) a + S1x128x112.size a ≤ S1x128x784.size a
  dot_S128x784_S112x784_S128x112_1_1_0_0_n_n_wf : DotDims.WF S128x784 S112x784 S128x112 [1] [1] [0] [0] [] []
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S1x8x784.size a ≤ S1x128x784.size a
  k0_t2_ok : k0_t2_loop.OK
  k0_mult2_dvd : ∀ k0_t2 : Fin k0_t2_loop.trips, 8 ∣ (k0_mult2 k0_t2).toNat
  k0_off2_inb : ∀ k0_t2 : Fin k0_t2_loop.trips, ∀ a, (k0_off2 k0_t2) a + S1x8x784.size a ≤ S1x128x784.size a
  k0_t3_ok : k0_t3_loop.OK
  k0_mult3_dvd : ∀ k0_t3 : Fin k0_t3_loop.trips, 8 ∣ (k0_mult3 k0_t3).toNat
  k0_off3_inb : ∀ k0_t3 : Fin k0_t3_loop.trips, ∀ a, (k0_off3 k0_t3) a + S1x8x784.size a ≤ S1x128x784.size a
  k0_t4_ok : k0_t4_loop.OK
  k0_mult4_dvd : ∀ k0_t4 : Fin k0_t4_loop.trips, 8 ∣ (k0_mult4 k0_t4).toNat
  k0_off4_inb : ∀ k0_t4 : Fin k0_t4_loop.trips, ∀ a, (k0_off4 k0_t4) a + S1x8x784.size a ≤ S1x128x784.size a
  k0_t5_ok : k0_t5_loop.OK
  k0_mult5_dvd : ∀ k0_t5 : Fin k0_t5_loop.trips, 8 ∣ (k0_mult5 k0_t5).toNat
  k0_off5_inb : ∀ k0_t5 : Fin k0_t5_loop.trips, ∀ a, (k0_off5 k0_t5) a + S1x8x784.size a ≤ S1x128x784.size a
  k0_t6_ok : k0_t6_loop.OK
  k0_mult6_dvd : ∀ k0_t6 : Fin k0_t6_loop.trips, 8 ∣ (k0_mult6 k0_t6).toNat
  k0_off6_inb : ∀ k0_t6 : Fin k0_t6_loop.trips, ∀ a, (k0_off6 k0_t6) a + S1x8x784.size a ≤ S1x128x784.size a
  k0_t7_ok : k0_t7_loop.OK
  k0_mult7_dvd : ∀ k0_t7 : Fin k0_t7_loop.trips, 8 ∣ (k0_mult7 k0_t7).toNat
  k0_off7_inb : ∀ k0_t7 : Fin k0_t7_loop.trips, ∀ a, (k0_off7 k0_t7) a + S1x8x784.size a ≤ S1x128x784.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x784.size a ≤ S2x128x784.size a
  hwx0_0 : ∀ i : grid0.Coords, EltTy.bits .f32 = 32 ∨ (Rect.block (s := S2x128x784) S1x128x784.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x784.size a ≤ S2x128x784.size a
  hwx0_1 : ∀ i : grid0.Coords, EltTy.bits .f32 = 32 ∨ (Rect.block (s := S2x128x784) S1x128x784.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x784.size a ≤ S2x128x784.size a
  hwx0_2 : ∀ i : grid0.Coords, EltTy.bits .f32 = 32 ∨ (Rect.block (s := S2x128x784) S1x128x784.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x784.size a ≤ S2x128x784.size a
  hwx0_3 : ∀ i : grid0.Coords, EltTy.bits .f32 = 32 ∨ (Rect.block (s := S2x128x784) S1x128x784.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x784x784.size a ≤ S2x784x784.size a
  hwx0_4 : ∀ i : grid0.Coords, EltTy.bits .f32 = 32 ∨ (Rect.block (s := S2x784x784) S1x784x784.size (cc0_transform_4 i) (hinb0_4 i)).WholeWords (EltTy.packing .f32)

variable [Facts₀]

def dot_S128x784_S112x784_S128x112_1_1_0_0_n_n : DotDims S128x784 S112x784 S128x112 where
  lhsContracting := [1]
  rhsContracting := [1]
  lhsNonContracting := [0]
  rhsNonContracting := [0]
  lhsBatch := []
  rhsBatch := []
  wf := dot_S128x784_S112x784_S128x112_1_1_0_0_n_n_wf

abbrev win0_0 : Pipeline.Window sig grid0 :=
  Pipeline.Window.ofSpec (Memref.whole main_arg0) S1x128x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x784.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128x784.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x128x784.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x784x784.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x128x784 : Shape := ⟨3, ![2, 128, 784]⟩
abbrev S_ : Shape := ⟨0, ![]⟩
abbrev S2x128x1x784 : Shape := ⟨4, ![2, 128, 1, 784]⟩
abbrev S2x128x784x1 : Shape := ⟨4, ![2, 128, 784, 1]⟩
abbrev S2x128x784x784 : Shape := ⟨4, ![2, 128, 784, 784]⟩
abbrev S2x784x784 : Shape := ⟨3, ![2, 784, 784]⟩
abbrev S2x784 : Shape := ⟨2, ![2, 784]⟩
abbrev S2x784x1 : Shape := ⟨3, ![2, 784, 1]⟩

abbrev nBuf : Space → Nat
  | .hbm => 32
  | .vmem => 0
  | .smem => 0
  | _ => 0

abbrev bufTy : (tb : Table) → Fin (tcTables nBuf tb) → BufTy
  | .hbm, ⟨0, _⟩ => ⟨S2x128x784, .f32⟩
  | .hbm, ⟨1, _⟩ => ⟨S2x128x784, .f32⟩
  | .hbm, ⟨2, _⟩ => ⟨S2x128x784, .f32⟩
  | .hbm, ⟨3, _⟩ => ⟨S_, .f32⟩
  | .hbm, ⟨4, _⟩ => ⟨S2x128x784, .f32⟩
  | .hbm, ⟨5, _⟩ => ⟨S2x128x784, .f32⟩
  | .hbm, ⟨6, _⟩ => ⟨S2x128x1x784, .f32⟩
  | .hbm, ⟨7, _⟩ => ⟨S2x128x784x1, .f32⟩
  | .hbm, ⟨8, _⟩ => ⟨S2x128x784x784, .f32⟩
  | .hbm, ⟨9, _⟩ => ⟨S2x128x784x784, .f32⟩
  | .hbm, ⟨10, _⟩ => ⟨S2x128x784x784, .f32⟩
  | .hbm, ⟨11, _⟩ => ⟨S2x128x784x784, .f32⟩
  | .hbm, ⟨12, _⟩ => ⟨S_, .f32⟩
  | .hbm, ⟨13, _⟩ => ⟨S2x784x784, .f32⟩
  | .hbm, ⟨14, _⟩ => ⟨S_, .f32⟩
  | .hbm, ⟨15, _⟩ => ⟨S2x784x784, .f32⟩
  | .hbm, ⟨16, _⟩ => ⟨S2x784x784, .f32⟩
  | .hbm, ⟨17, _⟩ => ⟨S_, .f32⟩
  | .hbm, ⟨18, _⟩ => ⟨S2x784, .f32⟩
  | .hbm, ⟨19, _⟩ => ⟨S_, .f32⟩
  | .hbm, ⟨20, _⟩ => ⟨S2x784, .f32⟩
  | .hbm, ⟨21, _⟩ => ⟨S2x784, .f32⟩
  | .hbm, ⟨22, _⟩ => ⟨S2x784x1, .f32⟩
  | .hbm, ⟨23, _⟩ => ⟨S2x784x784, .f32⟩
  | .hbm, ⟨24, _⟩ => ⟨S2x784x784, .f32⟩
  | .hbm, ⟨25, _⟩ => ⟨S2x784x784, .f32⟩
  | .hbm, ⟨26, _⟩ => ⟨S_, .f32⟩
  | .hbm, ⟨27, _⟩ => ⟨S2x784, .f32⟩
  | .hbm, ⟨28, _⟩ => ⟨S2x784x1, .f32⟩
  | .hbm, ⟨29, _⟩ => ⟨S2x784x784, .f32⟩
  | .hbm, ⟨30, _⟩ => ⟨S2x784x784, .f32⟩
  | .hbm, ⟨31, _⟩ => ⟨S2x128x784, .f32⟩
  | _, _ => ⟨S2x128x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S_S2x128x784 : S_.BroadcastsInDim S2x128x784 (![] : Fin 0 → Fin S2x128x784.rank)
  bcast_S2x128x784_S2x128x1x784_0_1_3 : S2x128x784.BroadcastsInDim S2x128x1x784 (![0, 1, 3] : Fin 3 → Fin S2x128x1x784.rank)
  bcast_S2x128x784_S2x128x784x1_0_1_2 : S2x128x784.BroadcastsInDim S2x128x784x1 (![0, 1, 2] : Fin 3 → Fin S2x128x784x1.rank)
  bcast_S2x128x1x784_S2x128x784x784_0_1_2_3 : S2x128x1x784.BroadcastsInDim S2x128x784x784 (![0, 1, 2, 3] : Fin 4 → Fin S2x128x784x784.rank)
  bcast_S2x128x784x1_S2x128x784x784_0_1_2_3 : S2x128x784x1.BroadcastsInDim S2x128x784x784 (![0, 1, 2, 3] : Fin 4 → Fin S2x128x784x784.rank)
  reducesTo_S2x128x784x784_S2x784x784_d1 : S2x128x784x784.ReducesTo [1] S2x784x784
  h_S_ : 0 < S_.numel
  bcast_S_S2x784x784 : S_.BroadcastsInDim S2x784x784 (![] : Fin 0 → Fin S2x784x784.rank)
  reducesTo_S2x784x784_S2x784_d2 : S2x784x784.ReducesTo [2] S2x784
  bcast_S_S2x784 : S_.BroadcastsInDim S2x784 (![] : Fin 0 → Fin S2x784.rank)
  bcast_S2x784_S2x784x1_0_1 : S2x784.BroadcastsInDim S2x784x1 (![0, 1] : Fin 2 → Fin S2x784x1.rank)
  bcast_S2x784x1_S2x784x784_0_1_2 : S2x784x1.BroadcastsInDim S2x784x784 (![0, 1, 2] : Fin 3 → Fin S2x784x784.rank)
  dot_S2x128x784_S2x784x784_S2x128x784_2_2_1_1_0_0_wf : DotDims.WF S2x128x784 S2x784x784 S2x128x784 [2] [2] [1] [1] [0] [0]

variable [Facts₀]

def dot_S2x128x784_S2x784x784_S2x128x784_2_2_1_1_0_0 : DotDims S2x128x784 S2x784x784 S2x128x784 where
  lhsContracting := [2]
  rhsContracting := [2]
  lhsNonContracting := [1]
  rhsNonContracting := [1]
  lhsBatch := [0]
  rhsBatch := [0]
  wf := dot_S2x128x784_S2x784x784_S2x128x784_2_2_1_1_0_0_wf

class Facts : Prop extends Facts₀ where

variable [Facts]
-- ==== Proof.Spec.lean ====
/-
  What both programs compute, stated once over plain index types.

  For one batch entry with channel rows `xq c q`, `xk c k`, `xv c q` (128 channels, 784 positions):

    meanDist k q = (∑ c, |xq c q · ι − xk c k|) · (1/128)      ι the reciprocal temperature
    attn k q     = exp (meanDist k q − max_q' meanDist k q') / ∑_q' exp (meanDist k q' − max …)
    out c k      = ∑ q, xv c q · attn k q

  The absolute value is `max a (−a)` and the row maximum a fold of `max` from −∞, as on the extended reals.
  Also here: a sum over 128 channels taken eight at a time in sixteen steps is the sum over all 128 (addition on
  the extended reals is commutative and associative, which is all this needs).
-/
import Idealize.ShloMosaic.PureOps.Ideal
import Idealize.ShloMosaic.PureOps.Ideal.Laws
import Mathlib.Algebra.BigOperators.Fin
import Mathlib.Logic.Equiv.Fin.Basic

noncomputable section

namespace Cert.Spec

open Idealize.ShloMosaic

/-- The reciprocal temperature: one over the reference's temperature word, 2^20 / 11863283. -/
def invTemp : EReal := ((1048576 / 11863283 : ℝ) : EReal)

/-- The softmax of one row `f` of 784 entries, shifted by the row's maximum. -/
def softmaxRow (f : Fin 784 → EReal) (q : Fin 784) : EReal :=
  Ideal.div (Ideal.exp (f q - (Finset.univ : Finset (Fin 784)).fold max ⊥ f))
    (∑ q' : Fin 784, Ideal.exp (f q' - (Finset.univ : Finset (Fin 784)).fold max ⊥ f))

/-- One channel's term of the distance: |a · ι − b|. -/
def absDiff (a b : EReal) : EReal := max (a * invTemp - b) (-(a * invTemp - b))

/-- The mean over the 128 channels of the absolute differences between column `q` of the scaled queries and
    column `k` of the keys. -/
def meanDist (xq xk : Fin 128 → Fin 784 → EReal) (k q : Fin 784) : EReal :=
  (∑ c : Fin 128, absDiff (xq c q) (xk c k)) * ((1 / 128 : ℝ) : EReal)

/-- The attention weights: each row of the mean distances through the softmax. -/
def attn (xq xk : Fin 128 → Fin 784 → EReal) (k q : Fin 784) : EReal :=
  softmaxRow (meanDist xq xk k) q

/-- The values averaged by the attention weights. -/
def out (xq xk xv : Fin 128 → Fin 784 → EReal) (c : Fin 128) (k : Fin 784) : EReal :=
  ∑ q : Fin 784, xv c q * attn xq xk k q

/-- Sixteen steps of eight channels make the 128 channels: the sum regrouped. -/
theorem sum_sixteen_eights {M : Type} [AddCommMonoid M] (f : Fin 128 → M) :
    ∑ k : Fin 16, ∑ j : Fin 8, f ⟨8 * k.val + j.val, by have := k.isLt; have := j.isLt; omega⟩ = ∑ c : Fin 128, f c := by
  rw [← Fintype.sum_prod_type (f := fun p : Fin 16 × Fin 8 => f ⟨8 * p.1.val + p.2.val, by have := p.1.isLt; have := p.2.isLt; omega⟩)]
  refine Fintype.sum_equiv (finProdFinEquiv (m := 16) (n := 8)) _ _ fun p => ?_
  refine congrArg f (Fin.ext ?_)
  show 8 * p.1.val + p.2.val = p.2.val + 8 * p.1.val
  omega

end Cert.Spec

end
-- ==== Proof.Trip.lean ====
/-
  One trip of the channel loop, read at an entry.

  A trip loads eight channel rows of the scaled queries and of the keys, takes from the key rows the 112 columns
  of the current key chunk (first column `o`), and adds to the carried (112 × 784) array the eight absolute
  differences |q[j, col] · ι − k[j, o + row]|. Entry (row, col) of the result is the carried entry plus that
  eight-term sum.
-/
import proofs.«159759_j73143293051614_2_alg».proof.Proof.Gen.KernelIdeal.Skeleton
import proofs.«159759_j73143293051614_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Body

open Cert.KernelIdeal Cert.KernelIdeal.Gen Idealize.ShloMosaic Idealize.ShloMosaic.ValueIdx Cert.Spec

/-- The kernel's named factor is the reciprocal temperature. -/
theorem inv_temp_eq : Named.named (F := Ideal) κ "inv_temp" (φ := .f32) 0x3DB504F3#32 = invTemp :=
  IdealRules.named_const.ideal_named_scalar _ _ _ _ rfl

/-- One trip's result, for the key chunk whose first column is `o`. -/
def tripTerm (o : ℕ) (hs : S8x784.Slices ![0, o] S8x112) (acc : FVec Ideal S112x784 .f32) (vq vk : Vec Ideal S1x8x784 .f32) :
    FVec Ideal S112x784 .f32 :=
  addf acc (multiReduction .add [0] S112x784 (absf (subf
    (broadcastTo S8x112x784 (shapeCast S8x1x784 (mulf (shapeCast S8x784 vq shapeCasts_S1x8x784_S8x784)
      (broadcast S8x784 (Named.named κ "inv_temp" 0x3DB504F3#32))) shapeCasts_S8x784_S8x1x784) broadcasts_S8x1x784_S8x112x784)
    (broadcastTo S8x112x784 (shapeCast S8x112x1 (extractStridedSlice S8x112 ![0, o] (shapeCast S8x784 vk shapeCasts_S1x8x784_S8x784) hs)
      shapeCasts_S8x112_S8x112x1) broadcasts_S8x112x1_S8x112x784)))
    0x00000000#32 reduces_S8x112x784_S112x784 (.inl rfl) rfl)

/-- The scaled query rows, spread over the key axis, at (j, row, col): the query entry (j, col) times ι. -/
theorem query_side (vq : Vec Ideal S1x8x784 .f32) (j : Fin 8) (r : Fin 112) (q : Fin 784) :
    broadcastTo S8x112x784 (shapeCast S8x1x784 (mulf (shapeCast S8x784 vq shapeCasts_S1x8x784_S8x784)
      (broadcast S8x784 (Named.named (F := Ideal) κ "inv_temp" (φ := .f32) 0x3DB504F3#32))) shapeCasts_S8x784_S8x1x784) broadcasts_S8x1x784_S8x112x784 (ix3 j r q)
      = vq (ix3 (0 : Fin 1) j q) * invTemp := by
  refine (broadcastTo_apply _ broadcasts_S8x1x784_S8x112x784 (ix3 j r q) (ix3 j (0 : Fin 1) q) fun a => ?_).trans ?_
  · match a with
    | ⟨0, _⟩ => rfl
    | ⟨1, _⟩ => rfl
    | ⟨2, _⟩ => rfl
  refine (shapeCast_apply _ shapeCasts_S8x784_S8x1x784 (ix3 j (0 : Fin 1) q) (ix2 j q) ?_).trans ?_
  · rw [Shape.rowMajor_val_two, Shape.rowMajor_val_three]
    show j.val * 784 + q.val = (j.val * 1 + 0) * 784 + q.val
    omega
  show shapeCast S8x784 vq shapeCasts_S1x8x784_S8x784 (ix2 j q) * Named.named (F := Ideal) κ "inv_temp" (φ := .f32) 0x3DB504F3#32 = _
  rw [inv_temp_eq]
  refine congrArg (· * invTemp) ?_
  refine shapeCast_apply _ shapeCasts_S1x8x784_S8x784 (ix2 j q) (ix3 (0 : Fin 1) j q) ?_
  rw [Shape.rowMajor_val_two, Shape.rowMajor_val_three]
  show (0 * 8 + j.val) * 784 + q.val = j.val * 784 + q.val
  omega

/-- The key chunk's rows, spread over the query axis, at (j, row, col): the key entry (j, o + row). -/
theorem key_side (o : ℕ) (hs : S8x784.Slices ![0, o] S8x112) (ho : o + 112 ≤ 784) (vk : Vec Ideal S1x8x784 .f32)
    (j : Fin 8) (r : Fin 112) (q : Fin 784) :
    broadcastTo S8x112x784 (shapeCast S8x112x1 (extractStridedSlice S8x112 ![0, o] (shapeCast S8x784 vk shapeCasts_S1x8x784_S8x784) hs)
      shapeCasts_S8x112_S8x112x1) broadcasts_S8x112x1_S8x112x784 (ix3 j r q)
      = vk (ix3 (0 : Fin 1) j ⟨o + r.val, by have := r.isLt; omega⟩) := by
  refine (broadcastTo_apply _ broadcasts_S8x112x1_S8x112x784 (ix3 j r q) (ix3 j r (0 : Fin 1)) fun a => ?_).trans ?_
  · match a with
    | ⟨0, _⟩ => rfl
    | ⟨1, _⟩ => rfl
    | ⟨2, _⟩ => rfl
  refine (shapeCast_apply _ shapeCasts_S8x112_S8x112x1 (ix3 j r (0 : Fin 1)) (ix2 j r) ?_).trans ?_
  · rw [Shape.rowMajor_val_two, Shape.rowMajor_val_three]
    show j.val * 112 + r.val = (j.val * 112 + r.val) * 1 + 0
    omega
  refine (extractStridedSlice_apply ![0, o] _ hs (ix2 j r) (ix2 j ⟨o + r.val, by have := r.isLt; omega⟩) fun a => ?_).trans ?_
  · match a with
    | ⟨0, _⟩ => show j.val = 0 + j.val; omega
    | ⟨1, _⟩ => rfl
  refine shapeCast_apply _ shapeCasts_S1x8x784_S8x784 (ix2 j ⟨o + r.val, by have := r.isLt; omega⟩) (ix3 (0 : Fin 1) j ⟨o + r.val, by have := r.isLt; omega⟩) ?_
  rw [Shape.rowMajor_val_two, Shape.rowMajor_val_three]
  show (0 * 8 + j.val) * 784 + (o + r.val) = j.val * 784 + (o + r.val)
  omega

/-- Entry (row, col) after one trip: the carried entry plus the eight channels' absolute differences. -/
theorem tripTerm_apply (o : ℕ) (hs : S8x784.Slices ![0, o] S8x112) (ho : o + 112 ≤ 784)
    (acc : FVec Ideal S112x784 .f32) (vq vk : Vec Ideal S1x8x784 .f32) (r : Fin 112) (q : Fin 784) :
    tripTerm o hs acc vq vk (ix2 r q)
      = acc (ix2 r q) + ∑ j : Fin 8, absDiff (vq (ix3 (0 : Fin 1) j q)) (vk (ix3 (0 : Fin 1) j ⟨o + r.val, by have := r.isLt; omega⟩)) := by
  unfold tripTerm
  refine congrArg (acc (ix2 r q) + ·) ?_
  refine (Ideal.multiReduction_add_single _ 0x00000000#32 reduces_S8x112x784_S112x784 (.inl rfl) rfl (ix2 r q)).trans ?_
  refine Finset.sum_congr rfl fun (j : Fin 8) _ => ?_
  have hl : reduces_S8x112x784_S112x784.lift (ix2 r q) j = ix3 j r q := funext fun a => Fin.ext (by
    match a with
    | ⟨0, _⟩ => rfl
    | ⟨1, _⟩ => rfl
    | ⟨2, _⟩ => rfl)
  rw [hl]
  exact congrArg₂ (fun a b : EReal => max (a - b) (-(a - b))) (query_side vq j r q) (key_side o hs ho vk j r q)

end Cert.KernelIdeal.Body

end
-- ==== Proof.Loop.lean ====
/-
  The channel loop as a sum.

  Sixteen trips, each adding eight channels' absolute differences to the carried array, starting from the initial
  array: after the last trip entry (row, col) is the initial entry plus the sum over all 128 channels of
  |q[c, col] · ι − k[c, o + row]|. Also: what a load of eight rows of a whole (1 × 128 × 784) buffer reads.
-/
import proofs.«159759_j73143293051614_2_alg».proof.Proof.Trip
import Idealize.ShloMosaic.Lib.Pipeline.Frame
import Idealize.ShloMosaic.Lib.Pipeline.FrameBody

set_option maxRecDepth 16384

noncomputable section

namespace Cert.KernelIdeal.Body

open Cert.KernelIdeal Cert.KernelIdeal.Gen Idealize.ShloMosaic Idealize.ShloMosaic.ValueIdx Cert.Spec

/-- A value that gains `g k` at step `k` ends, after sixteen steps, at its start plus the sum of the gains. -/
theorem fold_sixteen {M : Type} [AddCommMonoid M] (s : ℕ → M) (g : Fin 16 → M)
    (h : ∀ k : Fin 16, s (k.val + 1) = s k.val + g k) : s 16 = s 0 + ∑ k : Fin 16, g k := by
  have key : ∀ n (hn : n ≤ 16), s n = s 0 + ∑ k : Fin n, g (Fin.castLE hn k) := by
    intro n
    induction n with
    | zero => intro _; simp
    | succ n ih =>
      intro hn
      rw [h ⟨n, by omega⟩, ih (by omega), Fin.sum_univ_castSucc, add_assoc]
      rfl
  have := key 16 le_rfl
  simpa using this

/-- A load of rows `8k … 8k+7` of a whole buffer held at `x`, read at (0, j, col): entry (0, 8k + j, col) of `x`. -/
theorem load_rows (arg : Memref sig .tc .vmem S1x128x784 .f32) (harg : arg.IsWhole) (x : Vec Ideal S1x128x784 .f32)
    (off : Fin 3 → ℕ) (inb : ∀ a, off a + S1x8x784.size a ≤ S1x128x784.size a) (k : ℕ) (hk : 8 * k + 8 ≤ 128)
    (hoff : off = ![0, 8 * k, 0]) (j : Fin 8) (q : Fin 784) :
    View.readAt (Elt Ideal) arg.view (Rect.unit (s := S1x128x784) off S1x8x784.size inb).toLoadRect (harg.unread x) (ix3 (0 : Fin 1) j q)
      = x (ix3 (0 : Fin 1) ⟨8 * k + j.val, by have := j.isLt; omega⟩ q) := by
  subst hoff
  show arg.view.read (Elt Ideal) (harg.unread x) _ = _
  rw [harg.read_unread]
  refine congrArg x (funext fun a => Fin.ext ?_)
  match a with
  | ⟨0, _⟩ => rfl
  | ⟨1, _⟩ => show 8 * k + 1 * j.val = 8 * k + j.val; omega
  | ⟨2, _⟩ => show 0 + 1 * q.val = q.val; omega

/-- The loop's result at an entry, from its recursion: the start plus the 128 channels' absolute differences. -/
theorem chunk_sum (o : ℕ) (hs : S8x784.Slices ![0, o] S8x112) (ho : o + 112 ≤ 784)
    (xq xk : Vec Ideal S1x128x784 .f32) (st : ℕ → FVec Ideal S112x784 .f32) (vq vk : Fin 16 → Vec Ideal S1x8x784 .f32)
    (hvq : ∀ (k : Fin 16) (j : Fin 8) (q : Fin 784), vq k (ix3 (0 : Fin 1) j q) = xq (ix3 (0 : Fin 1) ⟨8 * k.val + j.val, by have := k.isLt; have := j.isLt; omega⟩ q))
    (hvk : ∀ (k : Fin 16) (j : Fin 8) (q : Fin 784), vk k (ix3 (0 : Fin 1) j q) = xk (ix3 (0 : Fin 1) ⟨8 * k.val + j.val, by have := k.isLt; have := j.isLt; omega⟩ q))
    (hstep : ∀ k : Fin 16, st (k.val + 1) = tripTerm o hs (st k.val) (vq k) (vk k)) (r : Fin 112) (q : Fin 784) :
    st 16 (ix2 r q) = st 0 (ix2 r q)
      + ∑ c : Fin 128, absDiff (xq (ix3 (0 : Fin 1) c q)) (xk (ix3 (0 : Fin 1) c ⟨o + r.val, by have := r.isLt; omega⟩)) := by
  rw [← sum_sixteen_eights (fun c : Fin 128 => absDiff (xq (ix3 (0 : Fin 1) c q)) (xk (ix3 (0 : Fin 1) c ⟨o + r.val, by have := r.isLt; omega⟩)))]
  refine fold_sixteen (fun n => st n (ix2 r q)) _ fun k => ?_
  show st (k.val + 1) (ix2 r q) = _
  rw [hstep k, tripTerm_apply o hs ho]
  refine congrArg (st k.val (ix2 r q) + ·) (Finset.sum_congr rfl fun j _ => ?_)
  rw [hvq k j q, hvk k j]

end Cert.KernelIdeal.Body

end
-- ==== Proof.Consts.lean ====
/-
  The float words this certificate meets, read as the extended reals they denote: the zero word, the
  reference's divisors 128 and 11863283/1048576 (the single-precision word nearest the square root of 128), the
  kernel's factor 1/128 (a power of two, so exact), and the word of minus infinity both maxima start from.
-/
import Idealize.ShloMosaic.PureOps.Ideal

noncomputable section

namespace Cert.Consts

open Idealize.ShloMosaic

/-- The zero word denotes 0. -/
theorem ofBits_zero : Ideal.ofBits .f32 0x00000000#32 = 0 := by
  simp [Ideal.ofBits, Ideal.ieee]

/-- The word `128.0` denotes the real 128. -/
theorem ofBits_128 : Ideal.ofBits .f32 0x43000000#32 = ((128 : ℝ) : EReal) := by
  simp [Ideal.ofBits, Ideal.ieee, -EReal.coe_mul]; norm_num

/-- The word `0.0078125` denotes 1/128 exactly: a power of two. -/
theorem ofBits_inv128 : Ideal.ofBits .f32 0x3C000000#32 = ((1 / 128 : ℝ) : EReal) := by
  simp [Ideal.ofBits, Ideal.ieee, -EReal.coe_mul]; norm_num

/-- The reference's temperature word denotes the dyadic rational 11863283 / 2^20. -/
theorem ofBits_temp : Ideal.ofBits .f32 0x413504F3#32 = ((11863283 / 1048576 : ℝ) : EReal) := by
  simp [Ideal.ofBits, Ideal.ieee, -EReal.coe_mul]; norm_num

/-- The word of minus infinity denotes the bottom of the extended reals. -/
theorem ofBits_neg_inf : Ideal.ofBits .f32 0xFF800000#32 = (⊥ : EReal) := by
  simp [Ideal.ofBits, Ideal.ieee]

end Cert.Consts

end
-- ==== Proof.Loops7.lean ====
/-
  The kernel's seven channel loops, one per key chunk, as sums.

  Each loop runs the same sixteen trips over the channel rows and differs only in the key chunk's first column
  (0, 112, …, 672). Its recursion, as the run of the body found it, is the recursion of the trip term; so its result
  at entry (row, col), started from the zero array, is the sum over the 128 channels of |q[c, col] · ι − k[c, o + row]|.
-/
import proofs.«159759_j73143293051614_2_alg».proof.Proof.Gen.KernelIdeal.Loops
import proofs.«159759_j73143293051614_2_alg».proof.Proof.Loop
import proofs.«159759_j73143293051614_2_alg».proof.Proof.Consts

set_option maxRecDepth 16384

noncomputable section

namespace Cert.KernelIdeal.Body

open Cert.KernelIdeal Cert.KernelIdeal.Gen Idealize.ShloMosaic Idealize.ShloMosaic.ValueIdx Idealize.SL.Sem Cert.Spec

/-- The loop of the key chunk starting at column 0. -/
theorem loop1 (c : Dev nD) (i : grid0.Coords) (arg1 : Memref sig .tc .vmem S1x128x784 .f32) (harg1 : arg1.IsWhole) (arg2 : Memref sig .tc .vmem S1x128x784 .f32) (harg2 : arg2.IsWhole) (arg3 : Memref sig .tc .vmem S1x128x784 .f32) (harg3 : arg3.IsWhole) (arg4 : Memref sig .tc .vmem S1x128x784 .f32) (harg4 : arg4.IsWhole) (arg5 : Memref sig .tc .vmem S1x784x784 .f32) (harg5 : arg5.IsWhole)
    (x0 x1 : Vec Ideal S1x128x784 .f32) (n : ℕ) (hn : n = 16) (r : Fin 112) (q : Fin 784) :
    st_k0_t1 (F := Ideal) Variants.none c none i arg1 harg1 arg2 harg2 arg3 harg3 arg4 harg4 arg5 harg5 (harg1.unread x0) (harg2.unread x1) k0_pay7 n (ix2 r q)
      = ∑ ch : Fin 128, absDiff (x0 (ix3 (0 : Fin 1) ch q)) (x1 (ix3 (0 : Fin 1) ch ⟨0 + r.val, by have := r.isLt; omega⟩)) := by
  subst hn
  have ht : k0_t1_loop.trips = 16 := by decide +kernel
  have lt : ∀ k : Fin 16, k.val < k0_t1_loop.trips := fun k => lt_of_lt_of_eq k.isLt ht.symm
  have h := chunk_sum 0 slices_S8x784_o0_0_S8x112 (by omega) x0 x1
    (fun n => st_k0_t1 (F := Ideal) Variants.none c none i arg1 harg1 arg2 harg2 arg3 harg3 arg4 harg4 arg5 harg5 (harg1.unread x0) (harg2.unread x1) k0_pay7 n)
    (fun k => View.readAt (Elt Ideal) arg1.view (Rect.unit (s := S1x128x784) (k0_off1 ⟨k.val, lt k⟩) S1x8x784.size (k0_off1_inb _)).toLoadRect (harg1.unread x0))
    (fun k => View.readAt (Elt Ideal) arg2.view (Rect.unit (s := S1x128x784) (k0_off1 ⟨k.val, lt k⟩) S1x8x784.size (k0_off1_inb _)).toLoadRect (harg2.unread x1))
    (fun k j q => load_rows arg1 harg1 x0 _ _ k.val (by have := k.isLt; omega) (k0_off1_eq _) j q)
    (fun k j q => load_rows arg2 harg2 x1 _ _ k.val (by have := k.isLt; omega) (k0_off1_eq _) j q)
    (fun k => (st_k0_t1_succ (F := Ideal) Variants.none c none i arg1 harg1 arg2 harg2 arg3 harg3 arg4 harg4 arg5 harg5 (harg1.unread x0) (harg2.unread x1) k0_pay7 ⟨k.val, lt k⟩).trans (by
      unfold tripR_k0_t1 trip_k0_t1
      rfl))
    r q
  refine h.trans ?_
  show Ideal.ofBits .f32 0x00000000#32 + _ = _
  rw [Consts.ofBits_zero, zero_add]

/-- The loop of the key chunk starting at column 112. -/
theorem loop2 (c : Dev nD) (i : grid0.Coords) (arg1 : Memref sig .tc .vmem S1x128x784 .f32) (harg1 : arg1.IsWhole) (arg2 : Memref sig .tc .vmem S1x128x784 .f32) (harg2 : arg2.IsWhole) (arg3 : Memref sig .tc .vmem S1x128x784 .f32) (harg3 : arg3.IsWhole) (arg4 : Memref sig .tc .vmem S1x128x784 .f32) (harg4 : arg4.IsWhole) (arg5 : Memref sig .tc .vmem S1x784x784 .f32) (harg5 : arg5.IsWhole)
    (x0 x1 : Vec Ideal S1x128x784 .f32) (n : ℕ) (hn : n = 16) (r : Fin 112) (q : Fin 784) :
    st_k0_t2 (F := Ideal) Variants.none c none i arg1 harg1 arg2 harg2 arg3 harg3 arg4 harg4 arg5 harg5 (harg1.unread x0) (harg2.unread x1) k0_pay12 n (ix2 r q)
      = ∑ ch : Fin 128, absDiff (x0 (ix3 (0 : Fin 1) ch q)) (x1 (ix3 (0 : Fin 1) ch ⟨112 + r.val, by have := r.isLt; omega⟩)) := by
  subst hn
  have ht : k0_t2_loop.trips = 16 := by decide +kernel
  have lt : ∀ k : Fin 16, k.val < k0_t2_loop.trips := fun k => lt_of_lt_of_eq k.isLt ht.symm
  have h := chunk_sum 112 slices_S8x784_o0_112_S8x112 (by omega) x0 x1
    (fun n => st_k0_t2 (F := Ideal) Variants.none c none i arg1 harg1 arg2 harg2 arg3 harg3 arg4 harg4 arg5 harg5 (harg1.unread x0) (harg2.unread x1) k0_pay12 n)
    (fun k => View.readAt (Elt Ideal) arg1.view (Rect.unit (s := S1x128x784) (k0_off2 ⟨k.val, lt k⟩) S1x8x784.size (k0_off2_inb _)).toLoadRect (harg1.unread x0))
    (fun k => View.readAt (Elt Ideal) arg2.view (Rect.unit (s := S1x128x784) (k0_off2 ⟨k.val, lt k⟩) S1x8x784.size (k0_off2_inb _)).toLoadRect (harg2.unread x1))
    (fun k j q => load_rows arg1 harg1 x0 _ _ k.val (by have := k.isLt; omega) (k0_off2_eq _) j q)
    (fun k j q => load_rows arg2 harg2 x1 _ _ k.val (by have := k.isLt; omega) (k0_off2_eq _) j q)
    (fun k => (st_k0_t2_succ (F := Ideal) Variants.none c none i arg1 harg1 arg2 harg2 arg3 harg3 arg4 harg4 arg5 harg5 (harg1.unread x0) (harg2.unread x1) k0_pay12 ⟨k.val, lt k⟩).trans (by
      unfold tripR_k0_t2 trip_k0_t2
      rfl))
    r q
  refine h.trans ?_
  show Ideal.ofBits .f32 0x00000000#32 + _ = _
  rw [Consts.ofBits_zero, zero_add]

/-- The loop of the key chunk starting at column 224 (the run carries three values of the chunk before past it). -/
theorem loop3 (c : Dev nD) (i : grid0.Coords) (arg1 : Memref sig .tc .vmem S1x128x784 .f32) (harg1 : arg1.IsWhole) (arg2 : Memref sig .tc .vmem S1x128x784 .f32) (harg2 : arg2.IsWhole) (arg3 : Memref sig .tc .vmem S1x128x784 .f32) (harg3 : arg3.IsWhole) (arg4 : Memref sig .tc .vmem S1x128x784 .f32) (harg4 : arg4.IsWhole) (arg5 : Memref sig .tc .vmem S1x784x784 .f32) (harg5 : arg5.IsWhole)
    (v2 : FVec Ideal S128x784 .bf16) (v29 : FVec Ideal S112x784 .f32) (v31 : FVec Ideal S112x1 .f32)
    (x0 x1 : Vec Ideal S1x128x784 .f32) (n : ℕ) (hn : n = 16) (r : Fin 112) (q : Fin 784) :
    st_k0_t3 (F := Ideal) Variants.none c none i arg1 harg1 arg2 harg2 arg3 harg3 arg4 harg4 arg5 harg5 v2 v29 v31 (harg1.unread x0) (harg2.unread x1) k0_pay19 n (ix2 r q)
      = ∑ ch : Fin 128, absDiff (x0 (ix3 (0 : Fin 1) ch q)) (x1 (ix3 (0 : Fin 1) ch ⟨224 + r.val, by have := r.isLt; omega⟩)) := by
  subst hn
  have ht : k0_t3_loop.trips = 16 := by decide +kernel
  have lt : ∀ k : Fin 16, k.val < k0_t3_loop.trips := fun k => lt_of_lt_of_eq k.isLt ht.symm
  have h := chunk_sum 224 slices_S8x784_o0_224_S8x112 (by omega) x0 x1
    (fun n => st_k0_t3 (F := Ideal) Variants.none c none i arg1 harg1 arg2 harg2 arg3 harg3 arg4 harg4 arg5 harg5 v2 v29 v31 (harg1.unread x0) (harg2.unread x1) k0_pay19 n)
    (fun k => View.readAt (Elt Ideal) arg1.view (Rect.unit (s := S1x128x784) (k0_off3 ⟨k.val, lt k⟩) S1x8x784.size (k0_off3_inb _)).toLoadRect (harg1.unread x0))
    (fun k => View.readAt (Elt Ideal) arg2.view (Rect.unit (s := S1x128x784) (k0_off3 ⟨k.val, lt k⟩) S1x8x784.size (k0_off3_inb _)).toLoadRect (harg2.unread x1))
    (fun k j q => load_rows arg1 harg1 x0 _ _ k.val (by have := k.isLt; omega) (k0_off3_eq _) j q)
    (fun k j q => load_rows arg2 harg2 x1 _ _ k.val (by have := k.isLt; omega) (k0_off3_eq _) j q)
    (fun k => (st_k0_t3_succ (F := Ideal) Variants.none c none i arg1 harg1 arg2 harg2 arg3 harg3 arg4 harg4 arg5 harg5 v2 v29 v31 (harg1.unread x0) (harg2.unread x1) k0_pay19 ⟨k.val, lt k⟩).trans (by
      unfold tripR_k0_t3 trip_k0_t3
      rfl))
    r q
  refine h.trans ?_
  show Ideal.ofBits .f32 0x00000000#32 + _ = _
  rw [Consts.ofBits_zero, zero_add]

/-- The loop of the key chunk starting at column 336. -/
theorem loop4 (c : Dev nD) (i : grid0.Coords) (arg1 : Memref sig .tc .vmem S1x128x784 .f32) (harg1 : arg1.IsWhole) (arg2 : Memref sig .tc .vmem S1x128x784 .f32) (harg2 : arg2.IsWhole) (arg3 : Memref sig .tc .vmem S1x128x784 .f32) (harg3 : arg3.IsWhole) (arg4 : Memref sig .tc .vmem S1x128x784 .f32) (harg4 : arg4.IsWhole) (arg5 : Memref sig .tc .vmem S1x784x784 .f32) (harg5 : arg5.IsWhole)
    (v2 : FVec Ideal S128x784 .bf16) (v65 : FVec Ideal S128x112 .f32)
    (x0 x1 : Vec Ideal S1x128x784 .f32) (n : ℕ) (hn : n = 16) (r : Fin 112) (q : Fin 784) :
    st_k0_t4 (F := Ideal) Variants.none c none i arg1 harg1 arg2 harg2 arg3 harg3 arg4 harg4 arg5 harg5 v2 v65 (harg1.unread x0) (harg2.unread x1) k0_pay25 n (ix2 r q)
      = ∑ ch : Fin 128, absDiff (x0 (ix3 (0 : Fin 1) ch q)) (x1 (ix3 (0 : Fin 1) ch ⟨336 + r.val, by have := r.isLt; omega⟩)) := by
  subst hn
  have ht : k0_t4_loop.trips = 16 := by decide +kernel
  have lt : ∀ k : Fin 16, k.val < k0_t4_loop.trips := fun k => lt_of_lt_of_eq k.isLt ht.symm
  have h := chunk_sum 336 slices_S8x784_o0_336_S8x112 (by omega) x0 x1
    (fun n => st_k0_t4 (F := Ideal) Variants.none c none i arg1 harg1 arg2 harg2 arg3 harg3 arg4 harg4 arg5 harg5 v2 v65 (harg1.unread x0) (harg2.unread x1) k0_pay25 n)
    (fun k => View.readAt (Elt Ideal) arg1.view (Rect.unit (s := S1x128x784) (k0_off4 ⟨k.val, lt k⟩) S1x8x784.size (k0_off4_inb _)).toLoadRect (harg1.unread x0))
    (fun k => View.readAt (Elt Ideal) arg2.view (Rect.unit (s := S1x128x784) (k0_off4 ⟨k.val, lt k⟩) S1x8x784.size (k0_off4_inb _)).toLoadRect (harg2.unread x1))
    (fun k j q => load_rows arg1 harg1 x0 _ _ k.val (by have := k.isLt; omega) (k0_off4_eq _) j q)
    (fun k j q => load_rows arg2 harg2 x1 _ _ k.val (by have := k.isLt; omega) (k0_off4_eq _) j q)
    (fun k => (st_k0_t4_succ (F := Ideal) Variants.none c none i arg1 harg1 arg2 harg2 arg3 harg3 arg4 harg4 arg5 harg5 v2 v65 (harg1.unread x0) (harg2.unread x1) k0_pay25 ⟨k.val, lt k⟩).trans (by
      unfold tripR_k0_t4 trip_k0_t4
      rfl))
    r q
  refine h.trans ?_
  show Ideal.ofBits .f32 0x00000000#32 + _ = _
  rw [Consts.ofBits_zero, zero_add]

/-- The loop of the key chunk starting at column 448. -/
theorem loop5 (c : Dev nD) (i : grid0.Coords) (arg1 : Memref sig .tc .vmem S1x128x784 .f32) (harg1 : arg1.IsWhole) (arg2 : Memref sig .tc .vmem S1x128x784 .f32) (harg2 : arg2.IsWhole) (arg3 : Memref sig .tc .vmem S1x128x784 .f32) (harg3 : arg3.IsWhole) (arg4 : Memref sig .tc .vmem S1x128x784 .f32) (harg4 : arg4.IsWhole) (arg5 : Memref sig .tc .vmem S1x784x784 .f32) (harg5 : arg5.IsWhole)
    (v2 : FVec Ideal S128x784 .bf16) (v65 : FVec Ideal S128x112 .f32)
    (x0 x1 : Vec Ideal S1x128x784 .f32) (n : ℕ) (hn : n = 16) (r : Fin 112) (q : Fin 784) :
    st_k0_t5 (F := Ideal) Variants.none c none i arg1 harg1 arg2 harg2 arg3 harg3 arg4 harg4 arg5 harg5 v2 v65 (harg1.unread x0) (harg2.unread x1) k0_pay30 n (ix2 r q)
      = ∑ ch : Fin 128, absDiff (x0 (ix3 (0 : Fin 1) ch q)) (x1 (ix3 (0 : Fin 1) ch ⟨448 + r.val, by have := r.isLt; omega⟩)) := by
  subst hn
  have ht : k0_t5_loop.trips = 16 := by decide +kernel
  have lt : ∀ k : Fin 16, k.val < k0_t5_loop.trips := fun k => lt_of_lt_of_eq k.isLt ht.symm
  have h := chunk_sum 448 slices_S8x784_o0_448_S8x112 (by omega) x0 x1
    (fun n => st_k0_t5 (F := Ideal) Variants.none c none i arg1 harg1 arg2 harg2 arg3 harg3 arg4 harg4 arg5 harg5 v2 v65 (harg1.unread x0) (harg2.unread x1) k0_pay30 n)
    (fun k => View.readAt (Elt Ideal) arg1.view (Rect.unit (s := S1x128x784) (k0_off5 ⟨k.val, lt k⟩) S1x8x784.size (k0_off5_inb _)).toLoadRect (harg1.unread x0))
    (fun k => View.readAt (Elt Ideal) arg2.view (Rect.unit (s := S1x128x784) (k0_off5 ⟨k.val, lt k⟩) S1x8x784.size (k0_off5_inb _)).toLoadRect (harg2.unread x1))
    (fun k j q => load_rows arg1 harg1 x0 _ _ k.val (by have := k.isLt; omega) (k0_off5_eq _) j q)
    (fun k j q => load_rows arg2 harg2 x1 _ _ k.val (by have := k.isLt; omega) (k0_off5_eq _) j q)
    (fun k => (st_k0_t5_succ (F := Ideal) Variants.none c none i arg1 harg1 arg2 harg2 arg3 harg3 arg4 harg4 arg5 harg5 v2 v65 (harg1.unread x0) (harg2.unread x1) k0_pay30 ⟨k.val, lt k⟩).trans (by
      unfold tripR_k0_t5 trip_k0_t5
      rfl))
    r q
  refine h.trans ?_
  show Ideal.ofBits .f32 0x00000000#32 + _ = _
  rw [Consts.ofBits_zero, zero_add]

/-- The loop of the key chunk starting at column 560. -/
theorem loop6 (c : Dev nD) (i : grid0.Coords) (arg1 : Memref sig .tc .vmem S1x128x784 .f32) (harg1 : arg1.IsWhole) (arg2 : Memref sig .tc .vmem S1x128x784 .f32) (harg2 : arg2.IsWhole) (arg3 : Memref sig .tc .vmem S1x128x784 .f32) (harg3 : arg3.IsWhole) (arg4 : Memref sig .tc .vmem S1x128x784 .f32) (harg4 : arg4.IsWhole) (arg5 : Memref sig .tc .vmem S1x784x784 .f32) (harg5 : arg5.IsWhole)
    (v2 : FVec Ideal S128x784 .bf16) (v100 : FVec Ideal S112x784 .f32)
    (x0 x1 : Vec Ideal S1x128x784 .f32) (n : ℕ) (hn : n = 16) (r : Fin 112) (q : Fin 784) :
    st_k0_t6 (F := Ideal) Variants.none c none i arg1 harg1 arg2 harg2 arg3 harg3 arg4 harg4 arg5 harg5 v2 v100 (harg1.unread x0) (harg2.unread x1) k0_pay36 n (ix2 r q)
      = ∑ ch : Fin 128, absDiff (x0 (ix3 (0 : Fin 1) ch q)) (x1 (ix3 (0 : Fin 1) ch ⟨560 + r.val, by have := r.isLt; omega⟩)) := by
  subst hn
  have ht : k0_t6_loop.trips = 16 := by decide +kernel
  have lt : ∀ k : Fin 16, k.val < k0_t6_loop.trips := fun k => lt_of_lt_of_eq k.isLt ht.symm
  have h := chunk_sum 560 slices_S8x784_o0_560_S8x112 (by omega) x0 x1
    (fun n => st_k0_t6 (F := Ideal) Variants.none c none i arg1 harg1 arg2 harg2 arg3 harg3 arg4 harg4 arg5 harg5 v2 v100 (harg1.unread x0) (harg2.unread x1) k0_pay36 n)
    (fun k => View.readAt (Elt Ideal) arg1.view (Rect.unit (s := S1x128x784) (k0_off6 ⟨k.val, lt k⟩) S1x8x784.size (k0_off6_inb _)).toLoadRect (harg1.unread x0))
    (fun k => View.readAt (Elt Ideal) arg2.view (Rect.unit (s := S1x128x784) (k0_off6 ⟨k.val, lt k⟩) S1x8x784.size (k0_off6_inb _)).toLoadRect (harg2.unread x1))
    (fun k j q => load_rows arg1 harg1 x0 _ _ k.val (by have := k.isLt; omega) (k0_off6_eq _) j q)
    (fun k j q => load_rows arg2 harg2 x1 _ _ k.val (by have := k.isLt; omega) (k0_off6_eq _) j q)
    (fun k => (st_k0_t6_succ (F := Ideal) Variants.none c none i arg1 harg1 arg2 harg2 arg3 harg3 arg4 harg4 arg5 harg5 v2 v100 (harg1.unread x0) (harg2.unread x1) k0_pay36 ⟨k.val, lt k⟩).trans (by
      unfold tripR_k0_t6 trip_k0_t6
      rfl))
    r q
  refine h.trans ?_
  show Ideal.ofBits .f32 0x00000000#32 + _ = _
  rw [Consts.ofBits_zero, zero_add]

/-- The loop of the key chunk starting at column 672, the last. -/
theorem loop7 (c : Dev nD) (i : grid0.Coords) (arg1 : Memref sig .tc .vmem S1x128x784 .f32) (harg1 : arg1.IsWhole) (arg2 : Memref sig .tc .vmem S1x128x784 .f32) (harg2 : arg2.IsWhole) (arg3 : Memref sig .tc .vmem S1x128x784 .f32) (harg3 : arg3.IsWhole) (arg4 : Memref sig .tc .vmem S1x128x784 .f32) (harg4 : arg4.IsWhole) (arg5 : Memref sig .tc .vmem S1x784x784 .f32) (harg5 : arg5.IsWhole)
    (x0 x1 : Vec Ideal S1x128x784 .f32) (n : ℕ) (hn : n = 16) (r : Fin 112) (q : Fin 784) :
    st_k0_t7 (F := Ideal) Variants.none c none i arg1 harg1 arg2 harg2 arg3 harg3 arg4 harg4 arg5 harg5 (harg1.unread x0) (harg2.unread x1) k0_pay1 n (ix2 r q)
      = ∑ ch : Fin 128, absDiff (x0 (ix3 (0 : Fin 1) ch q)) (x1 (ix3 (0 : Fin 1) ch ⟨672 + r.val, by have := r.isLt; omega⟩)) := by
  subst hn
  have ht : k0_t7_loop.trips = 16 := by decide +kernel
  have lt : ∀ k : Fin 16, k.val < k0_t7_loop.trips := fun k => lt_of_lt_of_eq k.isLt ht.symm
  have h := chunk_sum 672 slices_S8x784_o0_672_S8x112 (by omega) x0 x1
    (fun n => st_k0_t7 (F := Ideal) Variants.none c none i arg1 harg1 arg2 harg2 arg3 harg3 arg4 harg4 arg5 harg5 (harg1.unread x0) (harg2.unread x1) k0_pay1 n)
    (fun k => View.readAt (Elt Ideal) arg1.view (Rect.unit (s := S1x128x784) (k0_off7 ⟨k.val, lt k⟩) S1x8x784.size (k0_off7_inb _)).toLoadRect (harg1.unread x0))
    (fun k => View.readAt (Elt Ideal) arg2.view (Rect.unit (s := S1x128x784) (k0_off7 ⟨k.val, lt k⟩) S1x8x784.size (k0_off7_inb _)).toLoadRect (harg2.unread x1))
    (fun k j q => load_rows arg1 harg1 x0 _ _ k.val (by have := k.isLt; omega) (k0_off7_eq _) j q)
    (fun k j q => load_rows arg2 harg2 x1 _ _ k.val (by have := k.isLt; omega) (k0_off7_eq _) j q)
    (fun k => (st_k0_t7_succ (F := Ideal) Variants.none c none i arg1 harg1 arg2 harg2 arg3 harg3 arg4 harg4 arg5 harg5 (harg1.unread x0) (harg2.unread x1) k0_pay1 ⟨k.val, lt k⟩).trans (by
      unfold tripR_k0_t7 trip_k0_t7
      rfl))
    r q
  refine h.trans ?_
  show Ideal.ofBits .f32 0x00000000#32 + _ = _
  rw [Consts.ofBits_zero, zero_add]

end Cert.KernelIdeal.Body

end
-- ==== Proof.LibKeepdims.lean ====
import Idealize.ShloMosaic.Lib.Pipeline.Value
import Idealize.ShloMosaic.Lib.ValueIdx

/-!
# A column vector's two layout steps read at an index

A row-wise sum that keeps its axis (`sum (…, axis = -1, keepdims = True)`) reaches a kernel as a vector `[a]`
re-laid as a column `[a, 1]` and later broadcast along the rows to `[a, b]`. Both steps read one entry of the
operand: entry `(i, 0)` of the column is entry `i` of the vector, and entry `(i, c)` of the broadcast is entry
`(i, 0)` of the column. (The companions for a leading unit axis, `[a] → [1, a]` and `[1, b] → [a, b]`, are in the
library's layout file; these are the trailing-unit-axis forms, in the same style.)
-/

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Softmax.lean ====
/-
  The body after the channel loop, read at an entry.

  The loop's (112 × 784) array is scaled by 1/128 (the mean over channels); each row is shifted by its maximum,
  exponentiated, and divided by the row's sum of exponentials: entry (row, col) is the softmax of the row, at col.
  The row maximum and the row sum reach the entries through a column (112 × 1) spread along the row.
-/
import proofs.«159759_j73143293051614_2_alg».proof.Proof.Gen.KernelIdeal.Skeleton
import proofs.«159759_j73143293051614_2_alg».proof.Proof.Spec
import proofs.«159759_j73143293051614_2_alg».proof.Proof.Consts
import proofs.«159759_j73143293051614_2_alg».proof.Proof.LibKeepdims
import Idealize.ShloMosaic.Lib.Pipeline.Value
import Idealize.ShloMosaic.Lib.ValueIdx
import Idealize.ShloMosaic.PureOps.Ideal.Laws

set_option maxRecDepth 16384

noncomputable section

namespace Cert.KernelIdeal.Body

open Cert.KernelIdeal Cert.KernelIdeal.Gen Idealize.ShloMosaic Idealize.ShloMosaic.ValueIdx Cert.Spec

/-- The loop's sums scaled by the word 1/128. -/
def meanTerm (v : FVec Ideal S112x784 .f32) : FVec Ideal S112x784 .f32 :=
  mulf v (broadcast S112x784 (Scalar.ofBits .f32 0x3C000000#32))

/-- Each row's maximum, from minus infinity. -/
def rowMaxTerm (w : FVec Ideal S112x784 .f32) : FVec Ideal S112 .f32 :=
  multiReduction .maximumf [1] S112 w 0xFF800000#32 reduces_S112x784_S112 (.inl rfl) rfl

/-- The exponentials of the entries less their row's maximum. -/
def expTerm (w : FVec Ideal S112x784 .f32) : FVec Ideal S112x784 .f32 :=
  exp (subf w (broadcastTo S112x784 (shapeCast S112x1 (rowMaxTerm w) shapeCasts_S112_S112x1) broadcasts_S112x1_S112x784))

/-- The exponentials divided by their row's sum. -/
def softTerm (w : FVec Ideal S112x784 .f32) : FVec Ideal S112x784 .f32 :=
  divf (expTerm w) (broadcastTo S112x784 (shapeCast S112x1
    (multiReduction .add [1] S112 (expTerm w) 0x00000000#32 reduces_S112x784_S112 (.inl rfl) rfl) shapeCasts_S112_S112x1) broadcasts_S112x1_S112x784)

theorem meanTerm_apply (v : FVec Ideal S112x784 .f32) (r : Fin 112) (q : Fin 784) :
    meanTerm v (ix2 r q) = v (ix2 r q) * ((1 / 128 : ℝ) : EReal) := by
  show v (ix2 r q) * Ideal.ofBits .f32 0x3C000000#32 = _
  rw [Consts.ofBits_inv128]

/-- A per-row vector made a column and spread along the rows reads, at (row, col), the vector's entry of the row. -/
theorem col_spread (x : FVec Ideal S112 .f32) (r : Fin 112) (q : Fin 784) :
    broadcastTo S112x784 (shapeCast S112x1 x shapeCasts_S112_S112x1) broadcasts_S112x1_S112x784 (ix2 r q) = x (ix1 r) :=
  (broadcastTo_a1_ab_apply _ broadcasts_S112x1_S112x784 r q).trans (shapeCast_a_a1_apply x shapeCasts_S112_S112x1 r 0)

theorem lift_row (r : Fin 112) (q' : Fin 784) : reduces_S112x784_S112.lift (ix1 r) q' = ix2 r q' :=
  funext fun a => Fin.ext (by
    match a with
    | ⟨0, _⟩ => rfl
    | ⟨1, _⟩ => rfl)

theorem rowMaxTerm_apply (w : FVec Ideal S112x784 .f32) (r : Fin 112) :
    rowMaxTerm w (ix1 r) = (Finset.univ : Finset (Fin 784)).fold max ⊥ (fun q' => w (ix2 r q')) := by
  refine (Ideal.multiReduction_maximumf_single w 0xFF800000#32 reduces_S112x784_S112 (.inl rfl) rfl (ix1 r)).trans ?_
  have hf : (w ∘ reduces_S112x784_S112.lift (ix1 r) : Fin 784 → EReal) = fun q' => w (ix2 r q') :=
    funext fun q' => congrArg w (lift_row r q')
  exact congrArg₂ (fun (b : EReal) (f : Fin 784 → EReal) => (Finset.univ : Finset (Fin 784)).fold max b f) Consts.ofBits_neg_inf hf

theorem expTerm_apply (w : FVec Ideal S112x784 .f32) (r : Fin 112) (q : Fin 784) :
    expTerm w (ix2 r q) = Ideal.exp (w (ix2 r q) - (Finset.univ : Finset (Fin 784)).fold max ⊥ (fun q' => w (ix2 r q'))) := by
  show Ideal.exp (w (ix2 r q) - broadcastTo S112x784 (shapeCast S112x1 (rowMaxTerm w) shapeCasts_S112_S112x1) broadcasts_S112x1_S112x784 (ix2 r q)) = _
  rw [col_spread, rowMaxTerm_apply]

/-- Entry (row, col) of the softmax stage: the softmax of the row, at col. -/
theorem softTerm_apply (w : FVec Ideal S112x784 .f32) (r : Fin 112) (q : Fin 784) :
    softTerm w (ix2 r q) = softmaxRow (fun q' => w (ix2 r q')) q := by
  show Ideal.div (expTerm w (ix2 r q)) (broadcastTo S112x784 (shapeCast S112x1
    (multiReduction .add [1] S112 (expTerm w) 0x00000000#32 reduces_S112x784_S112 (.inl rfl) rfl) shapeCasts_S112_S112x1) broadcasts_S112x1_S112x784 (ix2 r q)) = _
  rw [col_spread, expTerm_apply]
  refine congrArg (Ideal.div _) ?_
  refine (Ideal.multiReduction_add_single (expTerm w) 0x00000000#32 reduces_S112x784_S112 (.inl rfl) rfl (ix1 r)).trans ?_
  refine Finset.sum_congr rfl fun (q' : Fin 784) _ => ?_
  rw [lift_row, expTerm_apply]

end Cert.KernelIdeal.Body

end
-- ==== Proof.Matmul.lean ====
/-
  The value stage of the body, read at an entry.

  The value block (1 × 128 × 784) is re-laid as (128 × 784); the product with the chunk's attention weights
  (112 × 784), contracting the position axis of both and starting from zero, is stored as (1 × 128 × 112):
  entry (0, c, row) is ∑ over positions q of value[c, q] · weight[row, q]. Narrowing to the half-width format is
  the identity on the extended reals.
-/
import proofs.«159759_j73143293051614_2_alg».proof.Proof.Gen.KernelIdeal.Skeleton
import proofs.«159759_j73143293051614_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Body

open Cert.KernelIdeal Cert.KernelIdeal.Gen Idealize.ShloMosaic Idealize.ShloMosaic.ValueIdx Cert.Spec

/-- The value block re-laid as a matrix. -/
def valTerm (x2 : Vec Ideal S1x128x784 .f32) : FVec Ideal S128x784 .bf16 :=
  truncf .bf16 (shapeCast S128x784 x2 shapeCasts_S1x128x784_S128x784) bitsLt_bf16_f32

/-- The product of the values with a chunk's weights, as stored. -/
def outTerm (v2 : FVec Ideal S128x784 .bf16) (a : FVec Ideal S112x784 .f32) : FVec Ideal S1x128x112 .f32 :=
  shapeCast S1x128x112 (matmul dot_S128x784_S112x784_S128x112_1_1_0_0_n_n none v2 (truncf .bf16 a bitsLt_bf16_f32) (constant S128x112 .f32 0x00000000#32))
    shapeCasts_S128x112_S1x128x112

theorem valTerm_apply (x2 : Vec Ideal S1x128x784 .f32) (c : Fin 128) (q : Fin 784) :
    valTerm x2 (ix2 c q) = x2 (ix3 (0 : Fin 1) c q) := by
  show shapeCast S128x784 x2 shapeCasts_S1x128x784_S128x784 (ix2 c q) = _
  refine shapeCast_apply _ shapeCasts_S1x128x784_S128x784 (ix2 c q) (ix3 (0 : Fin 1) c q) ?_
  rw [Shape.rowMajor_val_two, Shape.rowMajor_val_three]
  show (0 * 128 + c.val) * 784 + q.val = c.val * 784 + q.val
  omega

theorem lhs_row (i : S128x112.Idx) (k : dot_S128x784_S112x784_S128x112_1_1_0_0_n_n.contr.Idx) : (dot_S128x784_S112x784_S128x112_1_1_0_0_n_n.lhsIdx i k 0).val = (i 0).val := by
  unfold DotDims.lhsIdx
  rw [dif_neg (show ¬(0 : Fin S128x784.rank) ∈ dot_S128x784_S112x784_S128x112_1_1_0_0_n_n.lhsBatch by decide), dif_pos (show (0 : Fin S128x784.rank) ∈ dot_S128x784_S112x784_S128x112_1_1_0_0_n_n.lhsNonContracting by decide)]
  rfl

theorem rhs_row (i : S128x112.Idx) (k : dot_S128x784_S112x784_S128x112_1_1_0_0_n_n.contr.Idx) : (dot_S128x784_S112x784_S128x112_1_1_0_0_n_n.rhsIdx i k 0).val = (i 1).val := by
  unfold DotDims.rhsIdx
  rw [dif_neg (show ¬(0 : Fin S112x784.rank) ∈ dot_S128x784_S112x784_S128x112_1_1_0_0_n_n.rhsBatch by decide), dif_pos (show (0 : Fin S112x784.rank) ∈ dot_S128x784_S112x784_S128x112_1_1_0_0_n_n.rhsNonContracting by decide)]
  rfl

/-- Entry (0, c, row) of the stored product: the sum over positions of value times weight. -/
theorem outTerm_apply (v2 : FVec Ideal S128x784 .bf16) (a : FVec Ideal S112x784 .f32) (c : Fin 128) (r : Fin 112) :
    outTerm v2 a (ix3 (0 : Fin 1) c r) = ∑ q : Fin 784, v2 (ix2 c q) * a (ix2 r q) := by
  refine (shapeCast_apply _ shapeCasts_S128x112_S1x128x112 (ix3 (0 : Fin 1) c r) (ix2 c r) ?_).trans ?_
  · rw [Shape.rowMajor_val_two, Shape.rowMajor_val_three]
    show c.val * 112 + r.val = (0 * 128 + c.val) * 112 + r.val
    omega
  refine (Ideal.matmul_constant_zero_apply dot_S128x784_S112x784_S128x112_1_1_0_0_n_n none v2 (truncf .bf16 a bitsLt_bf16_f32) (ix2 c r)).trans ?_
  rw [← Equiv.sum_comp (contrEquiv1 dot_S128x784_S112x784_S128x112_1_1_0_0_n_n 784 rfl rfl).symm]
  refine Finset.sum_congr rfl fun k _ => ?_
  have hk := contrEquiv1_symm_val dot_S128x784_S112x784_S128x112_1_1_0_0_n_n 784 rfl rfl k
  have el : dot_S128x784_S112x784_S128x112_1_1_0_0_n_n.lhsIdx (ix2 c r) ((contrEquiv1 dot_S128x784_S112x784_S128x112_1_1_0_0_n_n 784 rfl rfl).symm k) = ix2 c k := funext fun a => Fin.ext (by
    match a with
    | ⟨0, _⟩ => exact lhs_row _ _
    | ⟨1, _⟩ => exact (dot_S128x784_S112x784_S128x112_1_1_0_0_n_n.lhsIdx_val_of_single rfl _ _).trans hk)
  have er : dot_S128x784_S112x784_S128x112_1_1_0_0_n_n.rhsIdx (ix2 c r) ((contrEquiv1 dot_S128x784_S112x784_S128x112_1_1_0_0_n_n 784 rfl rfl).symm k) = ix2 r k := funext fun a => Fin.ext (by
    match a with
    | ⟨0, _⟩ => exact rhs_row _ _
    | ⟨1, _⟩ => exact (dot_S128x784_S112x784_S128x112_1_1_0_0_n_n.rhsIdx_val_of_single rfl _ _).trans hk)
  rw [el, er]
  rfl

end Cert.KernelIdeal.Body

end
-- ==== Proof.Pieces.lean ====
/-
  One key chunk's two stores, as blocks of the batch entry's results.

  For a batch entry with query, key and value blocks x0, x1, x2 (each 1 × 128 × 784):
    attnBlock (0, k, q) = attn of the block's rows at (k, q)        (1 × 784 × 784)
    outBlock  (0, c, k) = out of the block's rows at (c, k)         (1 × 128 × 784)
  The chunk with first key column `o` stores rows o … o+111 of attnBlock and columns o … o+111 of outBlock,
  computed from the chunk's loop result; given that result as the channel sums, each store's payload at a local
  index is the block function at the index the store's rectangle sends it to.
-/
import proofs.«159759_j73143293051614_2_alg».proof.Proof.Softmax
import proofs.«159759_j73143293051614_2_alg».proof.Proof.Matmul

set_option maxRecDepth 16384

noncomputable section

namespace Cert.KernelIdeal.Body

open Cert.KernelIdeal Cert.KernelIdeal.Gen Idealize.ShloMosaic Idealize.ShloMosaic.ValueIdx Cert.Spec

/-- A block's channel rows. -/
abbrev rowsOf (x : Vec Ideal S1x128x784 .f32) : Fin 128 → Fin 784 → EReal := fun c q => x (ix3 (0 : Fin 1) c q)

/-- The attention weights of a batch entry, as the block the kernel writes back. -/
def attnBlock (x0 x1 : Vec Ideal S1x128x784 .f32) : S1x784x784.Idx → EReal :=
  fun y => attn (rowsOf x0) (rowsOf x1) (y 1) (y 2)

/-- The attended values of a batch entry, as the block the kernel writes back. -/
def outBlock (x0 x1 x2 : Vec Ideal S1x128x784 .f32) : S1x128x784.Idx → EReal :=
  fun y => out (rowsOf x0) (rowsOf x1) (rowsOf x2) (y 1) (y 2)

/-- What a chunk stores into the attention block, from its loop result. -/
def attnPiece (v : FVec Ideal S112x784 .f32) : FVec Ideal S1x112x784 .f32 :=
  shapeCast S1x112x784 (softTerm (meanTerm v)) shapeCasts_S112x784_S1x112x784

/-- What a chunk stores into the output block, from the value block and its loop result. -/
def outPiece (x2 : Vec Ideal S1x128x784 .f32) (v : FVec Ideal S112x784 .f32) : FVec Ideal S1x128x112 .f32 :=
  outTerm (valTerm x2) (softTerm (meanTerm v))

/-- A chunk's weights at (row, col): the attention of key column o + row at position col. -/
theorem chunk_attn (o : ℕ) (ho : o + 112 ≤ 784) (x0 x1 : Vec Ideal S1x128x784 .f32) (v : FVec Ideal S112x784 .f32)
    (hv : ∀ (r : Fin 112) (q : Fin 784), v (ix2 r q)
      = ∑ ch : Fin 128, absDiff (x0 (ix3 (0 : Fin 1) ch q)) (x1 (ix3 (0 : Fin 1) ch ⟨o + r.val, by have := r.isLt; omega⟩)))
    (r : Fin 112) (q : Fin 784) :
    softTerm (meanTerm v) (ix2 r q) = attn (rowsOf x0) (rowsOf x1) ⟨o + r.val, by have := r.isLt; omega⟩ q := by
  rw [softTerm_apply]
  unfold attn
  refine congrArg (fun f => softmaxRow f q) (funext fun q' => ?_)
  rw [meanTerm_apply, hv r q']
  rfl

theorem attnPiece_ok (o : ℕ) (ho : o + 112 ≤ 784) (x0 x1 : Vec Ideal S1x128x784 .f32) (v : FVec Ideal S112x784 .f32)
    (hv : ∀ (r : Fin 112) (q : Fin 784), v (ix2 r q)
      = ∑ ch : Fin 128, absDiff (x0 (ix3 (0 : Fin 1) ch q)) (x1 (ix3 (0 : Fin 1) ch ⟨o + r.val, by have := r.isLt; omega⟩)))
    (inb : ∀ a, (![0, o, 0] : Fin 3 → ℕ) a + S1x112x784.size a ≤ S1x784x784.size a) (x : S1x112x784.Idx) :
    attnPiece v x = attnBlock x0 x1 ((Rect.unit (s := S1x784x784) ![0, o, 0] S1x112x784.size inb).emb x) := by
  obtain ⟨u, r, q, rfl⟩ : ∃ (u : Fin 1) (r : Fin 112) (q : Fin 784), x = ix3 u r q := ⟨x 0, x 1, x 2, eq_ix3 x⟩
  have hu : u.val = 0 := by omega
  refine (shapeCast_apply _ shapeCasts_S112x784_S1x112x784 (ix3 u r q) (ix2 r q) ?_).trans ?_
  · rw [Shape.rowMajor_val_two, Shape.rowMajor_val_three]
    show r.val * 784 + q.val = (u.val * 112 + r.val) * 784 + q.val
    rw [hu]; omega
  rw [chunk_attn o ho x0 x1 v hv r q]
  refine congrArg₂ (attn (rowsOf x0) (rowsOf x1)) (Fin.ext ?_) (Fin.ext ?_)
  · show o + r.val = o + 1 * r.val; omega
  · show q.val = 0 + 1 * q.val; omega

theorem outPiece_ok (o : ℕ) (ho : o + 112 ≤ 784) (x0 x1 x2 : Vec Ideal S1x128x784 .f32) (v : FVec Ideal S112x784 .f32)
    (hv : ∀ (r : Fin 112) (q : Fin 784), v (ix2 r q)
      = ∑ ch : Fin 128, absDiff (x0 (ix3 (0 : Fin 1) ch q)) (x1 (ix3 (0 : Fin 1) ch ⟨o + r.val, by have := r.isLt; omega⟩)))
    (inb : ∀ a, (![0, 0, o] : Fin 3 → ℕ) a + S1x128x112.size a ≤ S1x128x784.size a) (x : S1x128x112.Idx) :
    outPiece x2 v x = outBlock x0 x1 x2 ((Rect.unit (s := S1x128x784) ![0, 0, o] S1x128x112.size inb).emb x) := by
  obtain ⟨u, c, r, rfl⟩ : ∃ (u : Fin 1) (c : Fin 128) (r : Fin 112), x = ix3 u c r := ⟨x 0, x 1, x 2, eq_ix3 x⟩
  have hu : u = 0 := Fin.ext (by omega)
  subst hu
  unfold outPiece
  rw [outTerm_apply]
  have e1 : ((Rect.unit (s := S1x128x784) ![0, 0, o] S1x128x112.size inb).emb (ix3 (0 : Fin 1) c r)) 1 = c :=
    Fin.ext (by show 0 + 1 * c.val = c.val; omega)
  have e2 : ((Rect.unit (s := S1x128x784) ![0, 0, o] S1x128x112.size inb).emb (ix3 (0 : Fin 1) c r)) 2
      = (⟨o + r.val, by have := r.isLt; omega⟩ : Fin 784) :=
    Fin.ext (by show o + 1 * r.val = o + r.val; omega)
  refine Eq.trans ?_ (congrArg₂ (out (rowsOf x0) (rowsOf x1) (rowsOf x2)) e1 e2).symm
  unfold out
  refine Finset.sum_congr rfl fun q _ => ?_
  rw [valTerm_apply, chunk_attn o ho x0 x1 v hv r q]

end Cert.KernelIdeal.Body

end
-- ==== Proof.Blocks.lean ====
/-
  What one grid point leaves in its two output blocks.

  The body's seven stores into each output tile the block; each store's payload, once the names the run gave to
  carried values are opened, is one chunk's piece (of the attention rows, or of the output columns) computed from
  that chunk's loop. By the loops' sums every piece is the block function at the index its rectangle addresses, so
  the block read back is the block function: the attention block is `attnBlock` and the output block `outBlock`
  of the point's three input blocks.
-/
import proofs.«159759_j73143293051614_2_alg».proof.Proof.Gen.KernelIdeal.Frame
import proofs.«159759_j73143293051614_2_alg».proof.Proof.Loops7
import proofs.«159759_j73143293051614_2_alg».proof.Proof.Pieces
import Idealize.ShloMosaic.Lib.Writes

set_option maxRecDepth 16384

noncomputable section

namespace Cert.KernelIdeal.Body

open Cert.KernelIdeal Cert.KernelIdeal.Gen Idealize.ShloMosaic Idealize.ShloMosaic.ValueIdx Idealize.ShloMosaic.Tactic Idealize.SL.Sem Cert.Spec

/-! The stores' payloads are the chunk pieces (the printed operations are the same, in the same order). -/

theorem pay4_eq (v : FVec Ideal S112x784 .f32) : k0_pay4 v = attnPiece v := rfl
theorem pay39_eq (v : FVec Ideal S112x784 .f32) : k0_pay39 v = attnPiece v := rfl
theorem pay34_eq (v : FVec Ideal S112x784 .f32) : k0_pay34 (k0_pay32 v) = attnPiece v := rfl
theorem pay28_eq (v : FVec Ideal S112x784 .f32) : k0_pay28 v = attnPiece v := rfl
theorem pay22_eq (v : FVec Ideal S112x784 .f32) : k0_pay22 v = attnPiece v := rfl
theorem pay17_eq (v : FVec Ideal S112x784 .f32) : k0_pay17 (k0_pay14 v) (k0_pay15 v) = attnPiece v := rfl
theorem pay10_eq (v : FVec Ideal S112x784 .f32) : k0_pay10 v = attnPiece v := rfl

theorem pay5_eq (x : Vec Ideal S1x128x784 .f32) (v : FVec Ideal S112x784 .f32) : k0_pay5 (k0_pay6 x) v = outPiece x v := rfl
theorem pay40_eq (x : Vec Ideal S1x128x784 .f32) (v : FVec Ideal S112x784 .f32) : k0_pay40 (k0_pay6 x) v = outPiece x v := rfl
theorem pay35_eq (x : Vec Ideal S1x128x784 .f32) (v : FVec Ideal S112x784 .f32) : k0_pay35 (k0_pay6 x) (k0_pay32 v) = outPiece x v := rfl
theorem pay29_eq (x : Vec Ideal S1x128x784 .f32) (v : FVec Ideal S112x784 .f32) : k0_pay29 (k0_pay6 x) v = outPiece x v := rfl
theorem pay24_eq (x : Vec Ideal S1x128x784 .f32) (v : FVec Ideal S112x784 .f32) : k0_pay24 (k0_pay23 (k0_pay6 x) v) = outPiece x v := rfl
theorem pay18_eq (x : Vec Ideal S1x128x784 .f32) (v : FVec Ideal S112x784 .f32) : k0_pay18 (k0_pay6 x) (k0_pay14 v) (k0_pay15 v) = outPiece x v := rfl
theorem pay11_eq (x : Vec Ideal S1x128x784 .f32) (v : FVec Ideal S112x784 .f32) : k0_pay11 x v = outPiece x v := rfl

theorem zeros3 : (![0, 0, 0] : Fin 3 → ℕ) = fun _ => 0 := funext fun a => by fin_cases a <;> rfl

/-- The body's one load of the whole value block reads the block. -/
theorem load_values (arg3 : Memref sig .tc .vmem S1x128x784 .f32) (harg3 : arg3.IsWhole) (x2 : Vec Ideal S1x128x784 .f32) :
    View.readAt (Elt Ideal) arg3.view (Rect.unit (s := S1x128x784) ![0, 0, 0] S1x128x784.size inb_S1x128x784_S1x128x784_0_0_0).toLoadRect (harg3.unread x2) = x2 := by
  show View.ld (arg3.view.read (Elt Ideal) (harg3.unread x2)) _ = _
  rw [harg3.read_unread, View.ld_unit_zero zeros3]

/-- A chunk's output piece computed from a value block that is (by a load's reading) the point's value block. -/
theorem outPiece_ok' (o : ℕ) (ho : o + 112 ≤ 784) (x0 x1 x2 x2' : Vec Ideal S1x128x784 .f32) (h2 : x2' = x2) (v : FVec Ideal S112x784 .f32)
    (hv : ∀ (r : Fin 112) (q : Fin 784), v (ix2 r q)
      = ∑ ch : Fin 128, absDiff (x0 (ix3 (0 : Fin 1) ch q)) (x1 (ix3 (0 : Fin 1) ch ⟨o + r.val, by have := r.isLt; omega⟩)))
    (inb : ∀ a, (![0, 0, o] : Fin 3 → ℕ) a + S1x128x112.size a ≤ S1x128x784.size a) (x : S1x128x112.Idx) :
    outPiece x2' v x = outBlock x0 x1 x2 ((Rect.unit (s := S1x128x784) ![0, 0, o] S1x128x112.size inb).emb x) := by
  subst h2
  exact outPiece_ok o ho x0 x1 x2' v hv inb x

/-- The attention block after the body: the attention of the point's query and key blocks. -/
theorem attn_block (c : Dev nD) (i : grid0.Coords) (arg1 : Memref sig .tc .vmem S1x128x784 .f32) (harg1 : arg1.IsWhole) (arg2 : Memref sig .tc .vmem S1x128x784 .f32) (harg2 : arg2.IsWhole) (arg3 : Memref sig .tc .vmem S1x128x784 .f32) (harg3 : arg3.IsWhole) (arg4 : Memref sig .tc .vmem S1x128x784 .f32) (harg4 : arg4.IsWhole) (arg5 : Memref sig .tc .vmem S1x784x784 .f32) (harg5 : arg5.IsWhole)
    (x0 x1 x2 : Vec Ideal S1x128x784 .f32) :
    out0_A_4 c i arg1 harg1 arg2 harg2 arg3 harg3 arg4 harg4 arg5 harg5 x0 x1 x2 = attnBlock x0 x1 := by
  funext y
  unfold out0_A_4
  refine View.read_writes_apply_of_pieces _ _ (attnBlock x0 x1) _ ?_ y (cover0_A_4 c i arg1 harg1 arg2 harg2 arg3 harg3 arg4 harg4 arg5 harg5 x0 x1 x2 y)
  unfold kernelRun0_A
  dsimp only
  sl_unfold_run_names
  intro p hp x
  simp only [List.mem_cons, List.mem_nil_iff, or_false] at hp
  rcases hp with rfl | rfl | rfl | rfl | rfl | rfl | rfl
  · dsimp only
    rw [pay4_eq]
    exact attnPiece_ok 672 (by omega) x0 x1 _ (fun r q => loop7 c i arg1 harg1 arg2 harg2 arg3 harg3 arg4 harg4 arg5 harg5 x0 x1 _ (by decide +kernel) r q) _ x
  · dsimp only
    rw [pay39_eq]
    exact attnPiece_ok 560 (by omega) x0 x1 _ (fun r q => loop6 c i arg1 harg1 arg2 harg2 arg3 harg3 arg4 harg4 arg5 harg5 _ _ x0 x1 _ (by decide +kernel) r q) _ x
  · dsimp only
    rw [pay34_eq]
    exact attnPiece_ok 448 (by omega) x0 x1 _ (fun r q => loop5 c i arg1 harg1 arg2 harg2 arg3 harg3 arg4 harg4 arg5 harg5 _ _ x0 x1 _ (by decide +kernel) r q) _ x
  · dsimp only
    rw [pay28_eq]
    exact attnPiece_ok 336 (by omega) x0 x1 _ (fun r q => loop4 c i arg1 harg1 arg2 harg2 arg3 harg3 arg4 harg4 arg5 harg5 _ _ x0 x1 _ (by decide +kernel) r q) _ x
  · dsimp only
    rw [pay22_eq]
    exact attnPiece_ok 224 (by omega) x0 x1 _ (fun r q => loop3 c i arg1 harg1 arg2 harg2 arg3 harg3 arg4 harg4 arg5 harg5 _ _ _ x0 x1 _ (by decide +kernel) r q) _ x
  · dsimp only
    rw [pay17_eq]
    exact attnPiece_ok 112 (by omega) x0 x1 _ (fun r q => loop2 c i arg1 harg1 arg2 harg2 arg3 harg3 arg4 harg4 arg5 harg5 x0 x1 _ (by decide +kernel) r q) _ x
  · dsimp only
    rw [pay10_eq]
    exact attnPiece_ok 0 (by omega) x0 x1 _ (fun r q => loop1 c i arg1 harg1 arg2 harg2 arg3 harg3 arg4 harg4 arg5 harg5 x0 x1 _ (by decide +kernel) r q) _ x

/-- The output block after the body: the attended values of the point's three blocks. -/
theorem out_block (c : Dev nD) (i : grid0.Coords) (arg1 : Memref sig .tc .vmem S1x128x784 .f32) (harg1 : arg1.IsWhole) (arg2 : Memref sig .tc .vmem S1x128x784 .f32) (harg2 : arg2.IsWhole) (arg3 : Memref sig .tc .vmem S1x128x784 .f32) (harg3 : arg3.IsWhole) (arg4 : Memref sig .tc .vmem S1x128x784 .f32) (harg4 : arg4.IsWhole) (arg5 : Memref sig .tc .vmem S1x784x784 .f32) (harg5 : arg5.IsWhole)
    (x0 x1 x2 : Vec Ideal S1x128x784 .f32) :
    out0_A_3 c i arg1 harg1 arg2 harg2 arg3 harg3 arg4 harg4 arg5 harg5 x0 x1 x2 = outBlock x0 x1 x2 := by
  funext y
  unfold out0_A_3
  refine View.read_writes_apply_of_pieces _ _ (outBlock x0 x1 x2) _ ?_ y (cover0_A_3 c i arg1 harg1 arg2 harg2 arg3 harg3 arg4 harg4 arg5 harg5 x0 x1 x2 y)
  unfold kernelRun0_A
  dsimp only
  sl_unfold_run_names
  intro p hp x
  simp only [List.mem_cons, List.mem_nil_iff, or_false] at hp
  rcases hp with rfl | rfl | rfl | rfl | rfl | rfl | rfl
  · dsimp only
    rw [pay5_eq]
    exact outPiece_ok' 672 (by omega) x0 x1 x2 _ (load_values arg3 harg3 x2) _ (fun r q => loop7 c i arg1 harg1 arg2 harg2 arg3 harg3 arg4 harg4 arg5 harg5 x0 x1 _ (by decide +kernel) r q) _ x
  · dsimp only
    rw [pay40_eq]
    exact outPiece_ok' 560 (by omega) x0 x1 x2 _ (load_values arg3 harg3 x2) _ (fun r q => loop6 c i arg1 harg1 arg2 harg2 arg3 harg3 arg4 harg4 arg5 harg5 _ _ x0 x1 _ (by decide +kernel) r q) _ x
  · dsimp only
    rw [pay35_eq]
    exact outPiece_ok' 448 (by omega) x0 x1 x2 _ (load_values arg3 harg3 x2) _ (fun r q => loop5 c i arg1 harg1 arg2 harg2 arg3 harg3 arg4 harg4 arg5 harg5 _ _ x0 x1 _ (by decide +kernel) r q) _ x
  · dsimp only
    rw [pay29_eq]
    exact outPiece_ok' 336 (by omega) x0 x1 x2 _ (load_values arg3 harg3 x2) _ (fun r q => loop4 c i arg1 harg1 arg2 harg2 arg3 harg3 arg4 harg4 arg5 harg5 _ _ x0 x1 _ (by decide +kernel) r q) _ x
  · dsimp only
    rw [pay24_eq]
    exact outPiece_ok' 224 (by omega) x0 x1 x2 _ (load_values arg3 harg3 x2) _ (fun r q => loop3 c i arg1 harg1 arg2 harg2 arg3 harg3 arg4 harg4 arg5 harg5 _ _ _ x0 x1 _ (by decide +kernel) r q) _ x
  · dsimp only
    rw [pay18_eq]
    exact outPiece_ok' 112 (by omega) x0 x1 x2 _ (load_values arg3 harg3 x2) _ (fun r q => loop2 c i arg1 harg1 arg2 harg2 arg3 harg3 arg4 harg4 arg5 harg5 x0 x1 _ (by decide +kernel) r q) _ x
  · dsimp only
    rw [pay11_eq]
    exact outPiece_ok' 0 (by omega) x0 x1 x2 _ (load_values arg3 harg3 x2) _ (fun r q => loop1 c i arg1 harg1 arg2 harg2 arg3 harg3 arg4 harg4 arg5 harg5 x0 x1 _ (by decide +kernel) r q) _ x

end Cert.KernelIdeal.Body

end
-- ==== Proof.Arrays.lean ====
/-
  The two results as functions of the three argument arrays (2 × 128 × 784 each), index by index: batch entry b of
  the attention array is the attention of entry b's query and key rows, and of the output array the attended
  values of entry b's three blocks.
-/
import proofs.«159759_j73143293051614_2_alg».proof.Proof.Spec
import Idealize.ShloMosaic.Lib.ValueIdx

set_option maxRecDepth 16384

noncomputable section

namespace Cert.Spec

open Idealize.ShloMosaic Idealize.ShloMosaic.ValueIdx

/-- Batch entry `b` of an argument array, as channel rows. -/
def batchRows (X : (⟨3, ![2, 128, 784]⟩ : Shape).Idx → EReal) (b : Fin 2) : Fin 128 → Fin 784 → EReal :=
  fun c q => X (ix3 b c q)

/-- The attention array. -/
def attnArr (Q K : (⟨3, ![2, 128, 784]⟩ : Shape).Idx → EReal) : (⟨3, ![2, 784, 784]⟩ : Shape).Idx → EReal :=
  fun i => attn (batchRows Q (i 0)) (batchRows K (i 0)) (i 1) (i 2)

/-- The output array. -/
def outArr (Q K V : (⟨3, ![2, 128, 784]⟩ : Shape).Idx → EReal) : (⟨3, ![2, 128, 784]⟩ : Shape).Idx → EReal :=
  fun i => out (batchRows Q (i 0)) (batchRows K (i 0)) (batchRows V (i 0)) (i 1) (i 2)

end Cert.Spec

end
-- ==== Proof.KernelValue.lean ====
/-
  The kernel's two result arrays after its run.

  Grid point t works on batch entry t: every window's block at t is the whole of entry t of its array. What the
  point writes back to the attention array is therefore block t of the attention array of the arguments, and to the
  output array block t of the output array of the arguments; the two points' blocks cover both arrays, so after
  the run each result array is the specification's array of the three arguments.
-/
import proofs.«159759_j73143293051614_2_alg».proof.Proof.Gen.KernelIdeal.Value
import proofs.«159759_j73143293051614_2_alg».proof.Proof.Blocks
import proofs.«159759_j73143293051614_2_alg».proof.Proof.Arrays

set_option maxRecDepth 16384

noncomputable section

namespace Cert.KernelIdeal.KValue

open Cert.KernelIdeal Cert.KernelIdeal.Gen Cert.KernelIdeal.Value Cert.KernelIdeal.Body
open Idealize.ShloMosaic Idealize.ShloMosaic.TcCoe Idealize.ShloMosaic.ValueIdx Idealize.SL.Sem Cert.Spec
open Idealize.ShloMosaic.Pipeline (Dat)

variable (m : (ℓ : Loc nD τ sig) → Buf (Elt Ideal) ℓ) (ρ : Dev nD → PrngReg)

/-- The printed index maps over the grid: every window's block index at point t is (t, 0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

theorem t_lt (t : Fin cfg0.N) : t.val < 2 := lt_of_lt_of_eq t.isLt N_0

/-- Query block t is batch entry t of the query array. -/
theorem rows0 (c : Dev nD) (t : Fin cfg0.N) :
    rowsOf (iblk m c 0 t) = batchRows (V m c main_arg0) ⟨t.val, t_lt t⟩ := by
  obtain ⟨⟨e0, e1, e2⟩, -⟩ := idx_facts t
  funext ch q
  show V m c main_arg0 (((cfg0.win 0).blk t).view.emb (ix3 (0 : Fin 1) ch q)) = V m c main_arg0 (ix3 ⟨t.val, t_lt t⟩ ch q)
  refine congrArg (V m c main_arg0) (funext fun a => Fin.ext ?_)
  match a with
  | ⟨0, _⟩ => show win0_0.index t (0 : Fin 3) * 1 + 1 * 0 = t.val; omega
  | ⟨1, _⟩ => show win0_0.index t (1 : Fin 3) * 128 + 1 * ch.val = ch.val; omega
  | ⟨2, _⟩ => show win0_0.index t (2 : Fin 3) * 784 + 1 * q.val = q.val; omega

/-- Key block t is batch entry t of the key array. -/
theorem rows1 (c : Dev nD) (t : Fin cfg0.N) :
    rowsOf (iblk m c 1 t) = batchRows (V m c main_arg1) ⟨t.val, t_lt t⟩ := by
  obtain ⟨-, ⟨e0, e1, e2⟩, -⟩ := idx_facts t
  funext ch q
  show V m c main_arg1 (((cfg0.win 1).blk t).view.emb (ix3 (0 : Fin 1) ch q)) = V m c main_arg1 (ix3 ⟨t.val, t_lt t⟩ ch q)
  refine congrArg (V m c main_arg1) (funext fun a => Fin.ext ?_)
  match a with
  | ⟨0, _⟩ => show win0_1.index t (0 : Fin 3) * 1 + 1 * 0 = t.val; omega
  | ⟨1, _⟩ => show win0_1.index t (1 : Fin 3) * 128 + 1 * ch.val = ch.val; omega
  | ⟨2, _⟩ => show win0_1.index t (2 : Fin 3) * 784 + 1 * q.val = q.val; omega

/-- Value block t is batch entry t of the value array. -/
theorem rows2 (c : Dev nD) (t : Fin cfg0.N) :
    rowsOf (iblk m c 2 t) = batchRows (V m c main_arg2) ⟨t.val, t_lt t⟩ := by
  obtain ⟨-, -, ⟨e0, e1, e2⟩, -⟩ := idx_facts t
  funext ch q
  show V m c main_arg2 (((cfg0.win 2).blk t).view.emb (ix3 (0 : Fin 1) ch q)) = V m c main_arg2 (ix3 ⟨t.val, t_lt t⟩ ch q)
  refine congrArg (V m c main_arg2) (funext fun a => Fin.ext ?_)
  match a with
  | ⟨0, _⟩ => show win0_2.index t (0 : Fin 3) * 1 + 1 * 0 = t.val; omega
  | ⟨1, _⟩ => show win0_2.index t (1 : Fin 3) * 128 + 1 * ch.val = ch.val; omega
  | ⟨2, _⟩ => show win0_2.index t (2 : Fin 3) * 784 + 1 * q.val = q.val; omega

/-- What point t writes back to the attention array is block t of the attention array of the arguments. -/
theorem flushed4_eq (c : Dev nD) (t : Fin cfg0.N) :
    (dats m 0 c).flushed 4 t
      = ((cfg0.win 4).blk t).view.read (Elt Ideal) (attnArr (V m c main_arg0) (V m c main_arg1)) := by
  rw [flushed4_A, attn_block]
  obtain ⟨-, -, -, -, ⟨e0, e1, e2⟩⟩ := idx_facts t
  funext y
  obtain ⟨u, k, q, rfl⟩ : ∃ (u : Fin 1) (k q : Fin 784), y = ix3 u k q := ⟨y 0, y 1, y 2, eq_ix3 y⟩
  have hu : u.val = 0 := by omega
  have h0 : (((cfg0.win 4).blk t).view.emb (ix3 u k q)) 0 = (⟨t.val, t_lt t⟩ : Fin 2) :=
    Fin.ext (by show win0_4.index t (0 : Fin 3) * 1 + 1 * u.val = t.val; omega)
  have h1 : (((cfg0.win 4).blk t).view.emb (ix3 u k q)) 1 = k :=
    Fin.ext (by show win0_4.index t (1 : Fin 3) * 784 + 1 * k.val = k.val; omega)
  have h2 : (((cfg0.win 4).blk t).view.emb (ix3 u k q)) 2 = q :=
    Fin.ext (by show win0_4.index t (2 : Fin 3) * 784 + 1 * q.val = q.val; omega)
  show attn (rowsOf (iblk m c 0 t)) (rowsOf (iblk m c 1 t)) k q
    = (fun (b : Fin 2) (k q : Fin 784) => attn (batchRows (V m c main_arg0) b) (batchRows (V m c main_arg1) b) k q)
        ((((cfg0.win 4).blk t).view.emb (ix3 u k q)) 0) ((((cfg0.win 4).blk t).view.emb (ix3 u k q)) 1) ((((cfg0.win 4).blk t).view.emb (ix3 u k q)) 2)
  rw [h0, h1, h2, rows0, rows1]

/-- What point t writes back to the output array is block t of the output array of the arguments. -/
theorem flushed3_eq (c : Dev nD) (t : Fin cfg0.N) :
    (dats m 0 c).flushed 3 t
      = ((cfg0.win 3).blk t).view.read (Elt Ideal) (outArr (V m c main_arg0) (V m c main_arg1) (V m c main_arg2)) := by
  rw [flushed3_A, out_block]
  obtain ⟨-, -, -, ⟨e0, e1, e2⟩, -⟩ := idx_facts t
  funext y
  obtain ⟨u, ch, k, rfl⟩ : ∃ (u : Fin 1) (ch : Fin 128) (k : Fin 784), y = ix3 u ch k := ⟨y 0, y 1, y 2, eq_ix3 y⟩
  have hu : u.val = 0 := by omega
  have h0 : (((cfg0.win 3).blk t).view.emb (ix3 u ch k)) 0 = (⟨t.val, t_lt t⟩ : Fin 2) :=
    Fin.ext (by show win0_3.index t (0 : Fin 3) * 1 + 1 * u.val = t.val; omega)
  have h1 : (((cfg0.win 3).blk t).view.emb (ix3 u ch k)) 1 = ch :=
    Fin.ext (by show win0_3.index t (1 : Fin 3) * 128 + 1 * ch.val = ch.val; omega)
  have h2 : (((cfg0.win 3).blk t).view.emb (ix3 u ch k)) 2 = k :=
    Fin.ext (by show win0_3.index t (2 : Fin 3) * 784 + 1 * k.val = k.val; omega)
  show out (rowsOf (iblk m c 0 t)) (rowsOf (iblk m c 1 t)) (rowsOf (iblk m c 2 t)) ch k
    = (fun (b : Fin 2) (ch : Fin 128) (k : Fin 784) => out (batchRows (V m c main_arg0) b) (batchRows (V m c main_arg1) b) (batchRows (V m c main_arg2) b) ch k)
        ((((cfg0.win 3).blk t).view.emb (ix3 u ch k)) 0) ((((cfg0.win 3).blk t).view.emb (ix3 u ch k)) 1) ((((cfg0.win 3).blk t).view.emb (ix3 u ch k)) 2)
  rw [h0, h1, h2, rows0, rows1, rows2]

/-- An index of the attention array is in point t's block iff each coordinate is in the block's range. -/
theorem mem_blk4 (t : Fin cfg0.N) (i : S2x784x784.Idx) :
    i ∈ ((cfg0.win 4).blk t).view.set ↔ ∀ a : Fin 3, win0_4.index t a * S1x784x784.size a ≤ (i a).val ∧ (i a).val < win0_4.index t a * S1x784x784.size a + S1x784x784.size a := by
  show i ∈ ((View.whole main_v0_1).slice (win0_4.rect t)).set ↔ _
  rw [View.set_slice_whole, Rect.mem_set_unit]
  exact Iff.rfl

theorem mem_blk3 (t : Fin cfg0.N) (i : S2x128x784.Idx) :
    i ∈ ((cfg0.win 3).blk t).view.set ↔ ∀ a : Fin 3, win0_3.index t a * S1x128x784.size a ≤ (i a).val ∧ (i a).val < win0_3.index t a * S1x128x784.size a + S1x128x784.size a := by
  show i ∈ ((View.whole main_v0_0).slice (win0_3.rect t)).set ↔ _
  rw [View.set_slice_whole, Rect.mem_set_unit]
  exact Iff.rfl

/-- Every index of the attention array is in the block of the point that is its batch entry. -/
theorem cover4 (i : S2x784x784.Idx) : ∃ t : Fin cfg0.N, (cfg0.win 4).flush t = true ∧ i ∈ ((cfg0.win 4).blk t).view.set := by
  have hi0 : (i 0).val < 2 := (i 0).isLt
  have hi1 : (i 1).val < 784 := (i 1).isLt
  have hi2 : (i 2).val < 784 := (i 2).isLt
  refine ⟨⟨(i 0).val, lt_of_lt_of_eq hi0 N_0.symm⟩, flush0_4 _, ?_⟩
  obtain ⟨-, -, -, -, ⟨e0, e1, e2⟩⟩ := idx_facts ⟨(i 0).val, lt_of_lt_of_eq hi0 N_0.symm⟩
  rw [mem_blk4]
  intro a
  match a with
  | ⟨0, _⟩ =>
    have e0' : win0_4.index ⟨(i 0).val, lt_of_lt_of_eq hi0 N_0.symm⟩ (0 : Fin 3) = (i 0).val := e0
    show win0_4.index _ (0 : Fin 3) * 1 ≤ (i 0).val ∧ (i 0).val < win0_4.index _ (0 : Fin 3) * 1 + 1; rw [e0']; omega
  | ⟨1, _⟩ => show win0_4.index _ (1 : Fin 3) * 784 ≤ (i 1).val ∧ (i 1).val < win0_4.index _ (1 : Fin 3) * 784 + 784; rw [e1]; omega
  | ⟨2, _⟩ => show win0_4.index _ (2 : Fin 3) * 784 ≤ (i 2).val ∧ (i 2).val < win0_4.index _ (2 : Fin 3) * 784 + 784; rw [e2]; omega

theorem cover3 (i : S2x128x784.Idx) : ∃ t : Fin cfg0.N, (cfg0.win 3).flush t = true ∧ i ∈ ((cfg0.win 3).blk t).view.set := by
  have hi0 : (i 0).val < 2 := (i 0).isLt
  have hi1 : (i 1).val < 128 := (i 1).isLt
  have hi2 : (i 2).val < 784 := (i 2).isLt
  refine ⟨⟨(i 0).val, lt_of_lt_of_eq hi0 N_0.symm⟩, flush0_3 _, ?_⟩
  obtain ⟨-, -, -, ⟨e0, e1, e2⟩, -⟩ := idx_facts ⟨(i 0).val, lt_of_lt_of_eq hi0 N_0.symm⟩
  rw [mem_blk3]
  intro a
  match a with
  | ⟨0, _⟩ =>
    have e0' : win0_3.index ⟨(i 0).val, lt_of_lt_of_eq hi0 N_0.symm⟩ (0 : Fin 3) = (i 0).val := e0
    show win0_3.index _ (0 : Fin 3) * 1 ≤ (i 0).val ∧ (i 0).val < win0_3.index _ (0 : Fin 3) * 1 + 1; rw [e0']; omega
  | ⟨1, _⟩ => show win0_3.index _ (1 : Fin 3) * 128 ≤ (i 1).val ∧ (i 1).val < win0_3.index _ (1 : Fin 3) * 128 + 128; rw [e1]; omega
  | ⟨2, _⟩ => show win0_3.index _ (2 : Fin 3) * 784 ≤ (i 2).val ∧ (i 2).val < win0_3.index _ (2 : Fin 3) * 784 + 784; rw [e2]; omega

/-- The attention array after the run. -/
theorem final4 (c : Dev nD) :
    (dats m 0 c).arrAt 4 cfg0.N = attnArr (m ((c : Thread nD τ).loc main_arg0)) (m ((c : Thread nD τ).loc main_arg1)) :=
  (dats m 0 c).arrAt_eq_of_cover 4 _ (fun t _ => flushed4_eq m c t) cover4

/-- The output array after the run. -/
theorem final3 (c : Dev nD) :
    (dats m 0 c).arrAt 3 cfg0.N = outArr (m ((c : Thread nD τ).loc main_arg0)) (m ((c : Thread nD τ).loc main_arg1)) (m ((c : Thread nD τ).loc main_arg2)) :=
  (dats m 0 c).arrAt_eq_of_cover 3 _ (fun t _ => flushed3_eq m c t) cover3

/-- The kernel's run: it ends with the two result arrays at the specification's functions of the arguments, the
    arguments unchanged. -/
theorem run : θ_run defs (onTc (τ := τ) (main (F := Ideal))) ⟨m, fun _ => 0, ρ⟩ fun r => ∀ c : Dev nD,
      r.2.mem ((c : Thread nD τ).loc main_v0_0) = outArr (m ((c : Thread nD τ).loc main_arg0)) (m ((c : Thread nD τ).loc main_arg1)) (m ((c : Thread nD τ).loc main_arg2))
      ∧ r.2.mem ((c : Thread nD τ).loc main_v0_1) = attnArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Value.run_blocks m ρ)

end Cert.KernelIdeal.KValue

end
-- ==== Proof.RefValue.lean ====
/-
  The reference's two results are the specification's arrays.

  Stage by stage, at an index: the queries divided by the temperature word are the queries times its reciprocal
  (division by a nonzero real is multiplication by its inverse on every extended real); the sum over the channel axis
  from the zero word is the plain sum; dividing by 128 is multiplying by 1/128; the maximum over positions from
  minus infinity, joined once more with minus infinity, is the row's fold of max; the exponentials, their row
  sums and the quotient are the softmax of the row; the contraction with the values is the sum over positions.
-/
import proofs.«159759_j73143293051614_2_alg».proof.Proof.Gen.ReferenceIdeal.Read
import proofs.«159759_j73143293051614_2_alg».proof.Proof.Arrays
import proofs.«159759_j73143293051614_2_alg».proof.Proof.Consts
import Idealize.ShloMosaic.PureOps.Reduce

set_option maxRecDepth 16384

noncomputable section

namespace Cert.ReferenceIdeal.RefValue

open Cert.ReferenceIdeal Cert.ReferenceIdeal.Gen Cert.ReferenceIdeal.Read Idealize.ShloMosaic Idealize.ShloMosaic.ValueIdx Cert.Spec

variable (Q K V : (⟨S2x128x784, .f32⟩ : BufTy).Contents (Elt Ideal))

theorem inv_temp_real : ((1 / (11863283 / 1048576 : ℝ) : ℝ) : EReal) = invTemp := by
  unfold invTemp
  congr 1
  norm_num

/-- One channel's term: |q / T − k| is |q · ι − k|. -/
theorem ref_term (b : Fin 2) (k q : Fin 784) (c : Fin 128) :
    val_main_v7 (F := Ideal) Q K (idx_main_v8 (ix3 b k q) c) = absDiff (Q (ix3 b c q)) (K (ix3 b c k)) := by
  have eq_q : idx_main_v2 (idx_main_v4 (idx_main_v8 (ix3 b k q) c)) = ix3 b c q := funext fun a => Fin.ext (by
    match a with
    | ⟨0, _⟩ => rfl
    | ⟨1, _⟩ => rfl
    | ⟨2, _⟩ => rfl)
  have eq_k : idx_main_v3 (idx_main_v5 (idx_main_v8 (ix3 b k q) c)) = ix3 b c k := funext fun a => Fin.ext (by
    match a with
    | ⟨0, _⟩ => rfl
    | ⟨1, _⟩ => rfl
    | ⟨2, _⟩ => rfl)
  rw [val_main_v7_apply, val_main_v6_apply, val_main_v4_apply, val_main_v2_apply, val_main_v1_apply, val_main_v0_apply,
    val_main_cst_apply, val_main_v5_apply, val_main_v3_apply, eq_q, eq_k]
  simp only [Ideal.hostAbsf_def, Ideal.absf_def, Ideal.subf_def, Ideal.hostDivf_def, Ideal.ofBits_def, Consts.ofBits_temp]
  rw [Ideal.div_coe (by norm_num : (11863283 / 1048576 : ℝ) ≠ 0), inv_temp_real]
  rfl

/-- The mean distances. -/
theorem ref_mean (b : Fin 2) (k q : Fin 784) :
    val_main_v10 (F := Ideal) Q K (ix3 b k q) = meanDist (batchRows Q b) (batchRows K b) k q := by
  rw [val_main_v10_apply, val_main_v9_apply, val_main_cst_1_apply, val_main_v8_apply, val_main_cst_0_apply]
  simp only [Ideal.hostDivf_def, Ideal.ofBits_def, Consts.ofBits_128, Consts.ofBits_zero, zero_add]
  rw [Ideal.div_coe (by norm_num : (128 : ℝ) ≠ 0)]
  unfold meanDist
  refine congrArg (· * ((1 / 128 : ℝ) : EReal)) (Finset.sum_congr rfl fun c _ => ?_)
  exact ref_term Q K b k q c

/-- The row maxima. -/
theorem ref_max (b : Fin 2) (k : Fin 784) :
    val_main_v13 (F := Ideal) Q K (ix2 b k)
      = (Finset.univ : Finset (Fin 784)).fold max ⊥ (meanDist (batchRows Q b) (batchRows K b) k) := by
  rw [val_main_v13_apply, val_main_v12_apply, val_main_cst_3_apply]
  show max (Ideal.ofBits .f32 0xFF800000#32) (val_main_v11 (F := Ideal) Q K (ix2 b k)) = _
  rw [Consts.ofBits_neg_inf, max_bot_left]
  unfold val_main_v11
  refine (Host.reduce_eq_fold_single FloatOps.maximumf _ _ reducesTo_S2x784x784_S2x784_d2 (by decide) h_S_ (ix2 b k)).trans ?_
  refine congrArg₂ (fun (bnd : EReal) (f : Fin 784 → EReal) => (Finset.univ : Finset (Fin 784)).fold max bnd f)
    Consts.ofBits_neg_inf (funext fun q' => ?_)
  refine Eq.trans (congrArg (val_main_v10 (F := Ideal) Q K) (funext fun a => Fin.ext ?_)) (ref_mean Q K b k q')
  match a with
  | ⟨0, _⟩ => rfl
  | ⟨1, _⟩ => rfl
  | ⟨2, _⟩ => rfl

/-- The exponentials of the shifted rows. -/
theorem ref_exp (b : Fin 2) (k q : Fin 784) :
    val_main_v17 (F := Ideal) Q K (ix3 b k q)
      = Ideal.exp (meanDist (batchRows Q b) (batchRows K b) k q
          - (Finset.univ : Finset (Fin 784)).fold max ⊥ (meanDist (batchRows Q b) (batchRows K b) k)) := by
  have e : idx_main_v14 (idx_main_v15 (ix3 b k q)) = ix2 b k := funext fun a => Fin.ext (by
    match a with
    | ⟨0, _⟩ => rfl
    | ⟨1, _⟩ => rfl)
  rw [val_main_v17_apply, val_main_v16_apply, val_main_v15_apply, val_main_v14_apply, e, ref_max, ref_mean]
  simp only [Ideal.hostUnary_exp_def, Ideal.subf_def]

/-- The attention array. -/
theorem ref_attn (b : Fin 2) (k q : Fin 784) :
    val_main_v21 (F := Ideal) Q K (ix3 b k q) = attn (batchRows Q b) (batchRows K b) k q := by
  have e : idx_main_v19 (idx_main_v20 (ix3 b k q)) = ix2 b k := funext fun a => Fin.ext (by
    match a with
    | ⟨0, _⟩ => rfl
    | ⟨1, _⟩ => rfl)
  have e' : ∀ q' : Fin 784, idx_main_v18 (ix2 b k) q' = ix3 b k q' := fun q' => funext fun a => Fin.ext (by
    match a with
    | ⟨0, _⟩ => rfl
    | ⟨1, _⟩ => rfl
    | ⟨2, _⟩ => rfl)
  rw [val_main_v21_apply, val_main_v20_apply, val_main_v19_apply, e, val_main_v18_apply, val_main_cst_4_apply, ref_exp]
  simp only [Ideal.hostDivf_def, Ideal.ofBits_def, Consts.ofBits_zero, zero_add, e', ref_exp]
  rfl

/-- The output array. -/
theorem ref_out (b : Fin 2) (c : Fin 128) (k : Fin 784) :
    val_main_v22 (F := Ideal) Q K V (ix3 b c k) = out (batchRows Q b) (batchRows K b) (batchRows V b) c k := by
  rw [val_main_v22_apply]
  unfold out
  refine Finset.sum_congr rfl fun q _ => ?_
  have el : lidx_main_v22 (ix3 b c k) q = ix3 b c q := funext fun a => Fin.ext (by
    match a with
    | ⟨0, _⟩ => rfl
    | ⟨1, _⟩ => rfl
    | ⟨2, _⟩ => rfl)
  have er : ridx_main_v22 (ix3 b c k) q = ix3 b k q := funext fun a => Fin.ext (by
    match a with
    | ⟨0, _⟩ => rfl
    | ⟨1, _⟩ => rfl
    | ⟨2, _⟩ => rfl)
  rw [el, er, ref_attn]
  rfl

theorem attn_eq : val_main_v21 (F := Ideal) Q K = attnArr Q K := by
  funext i
  obtain ⟨b, k, q, rfl⟩ : ∃ (b : Fin 2) (k q : Fin 784), i = ix3 b k q := ⟨i 0, i 1, i 2, eq_ix3 i⟩
  exact ref_attn Q K b k q

theorem out_eq : val_main_v22 (F := Ideal) Q K V = outArr Q K V := by
  funext i
  obtain ⟨b, c, k, rfl⟩ : ∃ (b : Fin 2) (c : Fin 128) (k : Fin 784), i = ix3 b c k := ⟨i 0, i 1, i 2, eq_ix3 i⟩
  exact ref_out Q K V b c k

end Cert.ReferenceIdeal.RefValue

end
-- ==== Proof.lean ====
/-
  A dense attention layer with an L1 score, per batch entry (128 channels, 784 positions):

    score[k, q] = mean over channels c of |query[c, q] / T − key[c, k]|,     T the temperature,
    attn[k, ·]  = softmax of score[k, ·],
    out[c, k]   = ∑ q, value[c, q] · attn[k, q].

  The kernel takes one batch entry per grid point and, inside it, the key positions 112 at a time; for each such
  chunk it accumulates the channel sum eight channels per loop trip, multiplies by 1/128, takes the row softmax and
  stores the chunk's rows of attn and columns of out. Its factor for the queries is a named constant, the
  reciprocal 2^20 / 11863283 of the reference's temperature word, so that scaling by it is dividing by T on every
  extended real; the sixteen-by-eight channel sum is the sum over the 128 channels (addition there is commutative
  and associative), and 1/128 is a power of two, hence exact. No step needs the inputs finite.

  The kernel's run and what each point writes back come from the generated frame and value modules, the
  reference's run and its stages at an index from the generated run and read modules; the hand-written modules
  join them: the trip, the loop and the later stages at an entry (Trip, Loop, Loops7, Softmax, Matmul), the chunk
  pieces and the blocks (Pieces, Blocks), the arrays after the run (KernelValue), and the reference as the same
  arrays (RefValue).
-/
import proofs.«159759_j73143293051614_2_alg».proof.Defs
import proofs.«159759_j73143293051614_2_alg».proof.Proof.Gen.Kernel
import proofs.«159759_j73143293051614_2_alg».proof.Proof.Gen.Kernel.Skeleton
import proofs.«159759_j73143293051614_2_alg».proof.Proof.Gen.Kernel.Loops
import proofs.«159759_j73143293051614_2_alg».proof.Proof.Gen.Kernel.Launch
import proofs.«159759_j73143293051614_2_alg».proof.Proof.Gen.Kernel.Points
import proofs.«159759_j73143293051614_2_alg».proof.Proof.Gen.Kernel.Frame
import proofs.«159759_j73143293051614_2_alg».proof.Proof.Gen.KernelIdeal
import proofs.«159759_j73143293051614_2_alg».proof.Proof.Gen.KernelIdeal.Skeleton
import proofs.«159759_j73143293051614_2_alg».proof.Proof.Gen.KernelIdeal.Loops
import proofs.«159759_j73143293051614_2_alg».proof.Proof.Gen.KernelIdeal.Launch
import proofs.«159759_j73143293051614_2_alg».proof.Proof.Gen.KernelIdeal.Points
import proofs.«159759_j73143293051614_2_alg».proof.Proof.Gen.KernelIdeal.Frame
import proofs.«159759_j73143293051614_2_alg».proof.Proof.Gen.ReferenceIdeal
import proofs.«159759_j73143293051614_2_alg».proof.Proof.Gen.Pre_finite_inputs
import proofs.«159759_j73143293051614_2_alg».proof.Proof.Gen.KernelIdeal.Value
import proofs.«159759_j73143293051614_2_alg».proof.Proof.Gen.ReferenceIdeal.Run
import proofs.«159759_j73143293051614_2_alg».proof.Proof.Gen.ReferenceIdeal.Read
import proofs.«159759_j73143293051614_2_alg».proof.Proof.KernelValue
import proofs.«159759_j73143293051614_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments: the generated frame. -/
theorem frame_k : Cert.frame_Kernel := fun m ρ _ => Cert.Kernel.Gen.frame m ρ

/-- The same for the idealized kernel. -/
theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- One site of the named factor: the table gives it 2^20 / 11863283, and the printed constant is that value. -/
theorem named_site :
    IdealRules.named_const.Statement Cert.KernelIdeal.κ "inv_temp" .f32 0x3DB504F3#32 ((1048576 / 11863283 : ℝ) : EReal) :=
  IdealRules.named_const.statement Cert.KernelIdeal.κ "inv_temp" .f32 0x3DB504F3#32 ((1048576 / 11863283 : ℝ) : EReal) rfl

/-- The idealization's ledger: the factor is named at the seven chunk loops. -/
theorem preserves : Cert.preserves_Kernel_KernelIdeal :=
  ⟨named_site, named_site, named_site, named_site, named_site, named_site, named_site⟩

/-- From memories that agree on the three arguments the kernel ends with its two result arrays at the
    specification's arrays of its arguments, and the reference with its two results at the same arrays of its own
    arguments, which are the kernel's. -/
theorem algebraic : Cert.algebraic_KernelIdeal_ReferenceIdeal := by
  intro m ρ m' ρ' _ hagree
  refine ⟨_, _, Cert.KernelIdeal.KValue.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v22_eq, Cert.ReferenceIdeal.RefValue.out_eq,
      (hagree c).1, (hagree c).2.1, (hagree c).2.2]
  · rw [(h c).2.1, Cert.ReferenceIdeal.Read.val_main_v21_eq, Cert.ReferenceIdeal.RefValue.attn_eq,
      (hagree c).1, (hagree c).2.1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
